-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x50 : Shape := ⟨2, ![4096, 50]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg7 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg7
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : IVec S4096 32) (main_arg1 : IVec S4096 32) (main_arg2 : IVec S4096x50 32) (main_arg3 : FVec F S4096x50 .f32) (main_arg4 : FVec F S100000x64 .f32) (main_arg5 : FVec F S100000x64 .f32) (main_arg6 : FVec F S3x64x64 .f32) (main_arg7 : FVec F S3x64 .f32) : IVec S_ 1 :=
  let main_v0 : FVec F S4096x50 .f32 := Host.absf main_arg3
  let main_cst : FVec F S_ .f32 := constant S_ .f32 0x7F800000#32
  let main_v1 : FVec F S4096x50 .f32 := broadcastInDim S4096x50 ![] bcast_S_S4096x50 main_cst
  let main_v2 : IVec S4096x50 1 := cmpf .olt main_v0 main_v1
  let main_c : IVec S_ 1 := constantI S_ 1 1#1
  let main_v3 : IVec S_ 1 := (fun x v => Host.reduce IntOp.andi x v reducesTo_S4096x50_S_d0_1 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg5
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S3x64x64 .f32 := Host.absf main_arg6
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg7 main_v13 main_v16
-- ==== Kernel.lean ====
abbrev S4096 : Shape := ⟨1, ![4096]⟩
abbrev S4096x50 : Shape := ⟨2, ![4096, 50]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩
abbrev S4096x1 : Shape := ⟨2, ![4096, 1]⟩
abbrev S4096x64 : Shape := ⟨2, ![4096, 64]⟩
abbrev S4096x50x1 : Shape := ⟨3, ![4096, 50, 1]⟩
abbrev S4096x50x64 : Shape := ⟨3, ![4096, 50, 64]⟩
abbrev S256x50x64 : Shape := ⟨3, ![256, 50, 64]⟩
abbrev S256x50 : Shape := ⟨2, ![256, 50]⟩
abbrev S256x64 : Shape := ⟨2, ![256, 64]⟩
abbrev S256x10x64 : Shape := ⟨3, ![256, 10, 64]⟩
abbrev S256x10 : Shape := ⟨2, ![256, 10]⟩
abbrev S256x10x1 : Shape := ⟨3, ![256, 10, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S4096x4096 : Shape := ⟨2, ![4096, 4096]⟩
abbrev S1024x64 : Shape := ⟨2, ![1024, 64]⟩
abbrev S1024x1024 : Shape := ⟨2, ![1024, 1024]⟩

abbrev nBuf : Space → Nat
  | .hbm => 37
  | .vmem => 16
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x50, .i32⟩
  | .hbm, ⟨3, _⟩ => ⟨S4096x50, .f32⟩
  | .hbm, ⟨4, _⟩ => ⟨S100000x64, .f32⟩
  | .hbm, ⟨5, _⟩ => ⟨S100000x64, .f32⟩
  | .hbm, ⟨6, _⟩ => ⟨S3x64x64, .f32⟩
  | .hbm, ⟨7, _⟩ => ⟨S3x64, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x64, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x64, .f32⟩
  | .hbm, ⟨26, _⟩ => ⟨S_, .i32⟩
  | .hbm, ⟨27, _⟩ => ⟨S4096x50, .i32⟩
  | .hbm, ⟨28, _⟩ => ⟨S4096x50, .i1⟩
  | .hbm, ⟨29, _⟩ => ⟨S_, .i32⟩
  | .hbm, ⟨30, _⟩ => ⟨S4096x50, .i32⟩
  | .hbm, ⟨31, _⟩ => ⟨S4096x50, .i32⟩
  | .hbm, ⟨32, _⟩ => ⟨S4096x50, .i32⟩
  | .hbm, ⟨33, _⟩ => ⟨S4096x50x1, .i32⟩
  | .hbm, ⟨34, _⟩ => ⟨S4096x50x64, .f32⟩
  | .hbm, ⟨35, _⟩ => ⟨S4096x64, .f32⟩
  | .hbm, ⟨36, _⟩ => ⟨S4096x4096, .f32⟩
  | .local _ .vmem, ⟨0, _⟩ => ⟨S256x50x64, .f32⟩
  | .local _ .vmem, ⟨1, _⟩ => ⟨S256x50x64, .f32⟩
  | .local _ .vmem, ⟨2, _⟩ => ⟨S256x50, .f32⟩
  | .local _ .vmem, ⟨3, _⟩ => ⟨S256x50, .f32⟩
  | .local _ .vmem, ⟨4, _⟩ => ⟨S256x64, .f32⟩
  | .local _ .vmem, ⟨5, _⟩ => ⟨S256x64, .f32⟩
  | .local _ .vmem, ⟨6, _⟩ => ⟨S3x64x64, .f32⟩
  | .local _ .vmem, ⟨7, _⟩ => ⟨S3x64, .f32⟩
  | .local _ .vmem, ⟨8, _⟩ => ⟨S256x64, .f32⟩
  | .local _ .vmem, ⟨9, _⟩ => ⟨S256x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x1024, .f32⟩
  | .local _ .vmem, ⟨15, _⟩ => ⟨S1024x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x50x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x50x64_S256x10x64_0_0_0 : ∀ a, (![0, 0, 0] : Fin 3 → Nat) a + S256x10x64.size a ≤ S256x50x64.size a
  h_S256x10x64 : 0 < S256x10x64.numel
  shapeCasts_S256x10x64_S256x10x64 : S256x10x64.ShapeCasts S256x10x64
  inb_S256x50_S256x10_0_0 : ∀ a, (![0, 0] : Fin 2 → Nat) a + S256x10.size a ≤ S256x50.size a
  h_S256x10 : 0 < S256x10.numel
  shapeCasts_S256x10_S256x10x1 : S256x10.ShapeCasts S256x10x1
  broadcasts_S256x10x1_S256x10x64 : S256x10x1.Broadcasts S256x10x64
  reduces_S256x10x64_S256x64 : S256x10x64.Reduces [1] S256x64
  inb_S256x50x64_S256x10x64_0_10_0 : ∀ a, (![0, 10, 0] : Fin 3 → Nat) a + S256x10x64.size a ≤ S256x50x64.size a
  inb_S256x50_S256x10_0_10 : ∀ a, (![0, 10] : Fin 2 → Nat) a + S256x10.size a ≤ S256x50.size a
  inb_S256x50x64_S256x10x64_0_20_0 : ∀ a, (![0, 20, 0] : Fin 3 → Nat) a + S256x10x64.size a ≤ S256x50x64.size a
  inb_S256x50_S256x10_0_20 : ∀ a, (![0, 20] : Fin 2 → Nat) a + S256x10.size a ≤ S256x50.size a
  inb_S256x50x64_S256x10x64_0_30_0 : ∀ a, (![0, 30, 0] : Fin 3 → Nat) a + S256x10x64.size a ≤ S256x50x64.size a
  inb_S256x50_S256x10_0_30 : ∀ a, (![0, 30] : Fin 2 → Nat) a + S256x10.size a ≤ S256x50.size a
  inb_S256x50x64_S256x10x64_0_40_0 : ∀ a, (![0, 40, 0] : Fin 3 → Nat) a + S256x10x64.size a ≤ S256x50x64.size a
  inb_S256x50_S256x10_0_40 : ∀ a, (![0, 40] : Fin 2 → Nat) a + S256x10.size a ≤ S256x50.size a
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  bitsLt_bf16_f32 : FTy.bits .bf16 < FTy.bits .f32
  shapeCasts_S64_S1x64 : S64.ShapeCasts S1x64
  broadcasts_S1x64_S256x64 : S1x64.Broadcasts S256x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  gather_S100000x64_S4096x1_S4096x64_1_0_n_n_0_1_164_wf : GatherDims.WF S100000x64 S4096x1 S4096x64 [1] [0] [] [0] [] 1 ![1, 64]
  gather_S100000x64_S4096x50x1_S4096x50x64_2_0_n_n_0_2_164_wf : GatherDims.WF S100000x64 S4096x50x1 S4096x50x64 [2] [0] [] [0] [] 2 ![1, 64]
  dot_S256x64_S64x64_S256x64_1_1_0_0_n_n_wf : DotDims.WF S256x64 S64x64 S256x64 [1] [1] [0] [0] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x50x64.size a ≤ S4096x50x64.size a
  hwx0_0 : ∀ i : grid0.Coords, EltTy.bits .f32 = 32 ∨ (Rect.block (s := S4096x50x64) S256x50x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x50.size a ≤ S4096x50.size a
  hwx0_1 : ∀ i : grid0.Coords, EltTy.bits .f32 = 32 ∨ (Rect.block (s := S4096x50) S256x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S4096x64.size a
  hwx0_5 : ∀ i : grid0.Coords, EltTy.bits .f32 = 32 ∨ (Rect.block (s := S4096x64) S256x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v20) S256x50x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096 : Shape := ⟨1, ![4096]⟩
abbrev S4096x50 : Shape := ⟨2, ![4096, 50]⟩
abbrev S100000x64 : Shape := ⟨2, ![100000, 64]⟩
abbrev S3x64x64 : Shape := ⟨3, ![3, 64, 64]⟩
abbrev S3x64 : Shape := ⟨2, ![3, 64]⟩
abbrev S_ : Shape := ⟨0, ![]⟩
abbrev S4096x1 : Shape := ⟨2, ![4096, 1]⟩
abbrev S4096x64 : Shape := ⟨2, ![4096, 64]⟩
abbrev S4096x50x1 : Shape := ⟨3, ![4096, 50, 1]⟩
abbrev S4096x50x64 : Shape := ⟨3, ![4096, 50, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x4096 : Shape := ⟨2, ![64, 4096]⟩
abbrev S4096x4096 : Shape := ⟨2, ![4096, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096x50, .i32⟩
  | .hbm, ⟨3, _⟩ => ⟨S4096x50, .f32⟩
  | .hbm, ⟨4, _⟩ => ⟨S100000x64, .f32⟩
  | .hbm, ⟨5, _⟩ => ⟨S100000x64, .f32⟩
  | .hbm, ⟨6, _⟩ => ⟨S3x64x64, .f32⟩
  | .hbm, ⟨7, _⟩ => ⟨S3x64, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x64, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x64, .f32⟩
  | .hbm, ⟨26, _⟩ => ⟨S_, .i32⟩
  | .hbm, ⟨27, _⟩ => ⟨S4096x50, .i32⟩
  | .hbm, ⟨28, _⟩ => ⟨S4096x50, .i1⟩
  | .hbm, ⟨29, _⟩ => ⟨S_, .i32⟩
  | .hbm, ⟨30, _⟩ => ⟨S4096x50, .i32⟩
  | .hbm, ⟨31, _⟩ => ⟨S4096x50, .i32⟩
  | .hbm, ⟨32, _⟩ => ⟨S4096x50, .i32⟩
  | .hbm, ⟨33, _⟩ => ⟨S4096x50x1, .i32⟩
  | .hbm, ⟨34, _⟩ => ⟨S4096x50x64, .f32⟩
  | .hbm, ⟨35, _⟩ => ⟨S4096x50x1, .f32⟩
  | .hbm, ⟨36, _⟩ => ⟨S4096x50x64, .f32⟩
  | .hbm, ⟨37, _⟩ => ⟨S4096x50x64, .f32⟩
  | .hbm, ⟨38, _⟩ => ⟨S_, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S1x64x64, .f32⟩
  | .hbm, ⟨45, _⟩ => ⟨S64x64, .f32⟩
  | .hbm, ⟨46, _⟩ => ⟨S64x64, .f32⟩
  | .hbm, ⟨47, _⟩ => ⟨S4096x64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S4096x64, .f32⟩
  | .hbm, ⟨52, _⟩ => ⟨S4096x64, .f32⟩
  | .hbm, ⟨53, _⟩ => ⟨S_, .f32⟩
  | .hbm, ⟨54, _⟩ => ⟨S4096x64, .f32⟩
  | .hbm, ⟨55, _⟩ => ⟨S4096x64, .f32⟩
  | .hbm, ⟨56, _⟩ => ⟨S4096x50x64, .f32⟩
  | .hbm, ⟨57, _⟩ => ⟨S4096x50x64, .f32⟩
  | .hbm, ⟨58, _⟩ => ⟨S_, .f32⟩
  | .hbm, ⟨59, _⟩ => ⟨S4096x64, .f32⟩
  | .hbm, ⟨60, _⟩ => ⟨S_, .f32⟩
  | .hbm, ⟨61, _⟩ => ⟨S4096x64, .f32⟩
  | .hbm, ⟨62, _⟩ => ⟨S4096x64, .f32⟩
  | .hbm, ⟨63, _⟩ => ⟨S4096x64, .f32⟩
  | .hbm, ⟨64, _⟩ => ⟨S1x64x64, .f32⟩
  | .hbm, ⟨65, _⟩ => ⟨S64x64, .f32⟩
  | .hbm, ⟨66, _⟩ => ⟨S64x64, .f32⟩
  | .hbm, ⟨67, _⟩ => ⟨S4096x64, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S4096x64, .f32⟩
  | .hbm, ⟨72, _⟩ => ⟨S4096x64, .f32⟩
  | .hbm, ⟨73, _⟩ => ⟨S_, .f32⟩
  | .hbm, ⟨74, _⟩ => ⟨S4096x64, .f32⟩
  | .hbm, ⟨75, _⟩ => ⟨S4096x64, .f32⟩
  | .hbm, ⟨76, _⟩ => ⟨S4096x50x64, .f32⟩
  | .hbm, ⟨77, _⟩ => ⟨S4096x50x64, .f32⟩
  | .hbm, ⟨78, _⟩ => ⟨S_, .f32⟩
  | .hbm, ⟨79, _⟩ => ⟨S4096x64, .f32⟩
  | .hbm, ⟨80, _⟩ => ⟨S_, .f32⟩
  | .hbm, ⟨81, _⟩ => ⟨S4096x64, .f32⟩
  | .hbm, ⟨82, _⟩ => ⟨S4096x64, .f32⟩
  | .hbm, ⟨83, _⟩ => ⟨S4096x64, .f32⟩
  | .hbm, ⟨84, _⟩ => ⟨S1x64x64, .f32⟩
  | .hbm, ⟨85, _⟩ => ⟨S64x64, .f32⟩
  | .hbm, ⟨86, _⟩ => ⟨S64x64, .f32⟩
  | .hbm, ⟨87, _⟩ => ⟨S4096x64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S4096x64, .f32⟩
  | .hbm, ⟨92, _⟩ => ⟨S4096x64, .f32⟩
  | .hbm, ⟨93, _⟩ => ⟨S_, .f32⟩
  | .hbm, ⟨94, _⟩ => ⟨S4096x64, .f32⟩
  | .hbm, ⟨95, _⟩ => ⟨S4096x64, .f32⟩
  | .hbm, ⟨96, _⟩ => ⟨S64x4096, .f32⟩
  | .hbm, ⟨97, _⟩ => ⟨S4096x4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call2_cst : Ref sig .tc := ⟨.hbm, 93, rfl⟩
abbrev main_call2_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S4096x50x1_S4096x50x64_0_1_2 : S4096x50x1.BroadcastsInDim S4096x50x64 (![0, 1, 2] : Fin 3 → Fin S4096x50x64.rank)
  reducesTo_S4096x50x64_S4096x64_d1 : S4096x50x64.ReducesTo [1] S4096x64
  h_S_ : 0 < S_.numel
  bcast_S_S4096x64 : S_.BroadcastsInDim S4096x64 (![] : Fin 0 → Fin S4096x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  transposes_S4096x64_S64x4096_1_0 : S4096x64.Transposes [1, 0] S64x4096
  gather_S100000x64_S4096x1_S4096x64_1_0_n_n_0_1_164_wf : GatherDims.WF S100000x64 S4096x1 S4096x64 [1] [0] [] [0] [] 1 ![1, 64]
  gather_S100000x64_S4096x50x1_S4096x50x64_2_0_n_n_0_2_164_wf : GatherDims.WF S100000x64 S4096x50x1 S4096x50x64 [2] [0] [] [0] [] 2 ![1, 64]
  dot_S4096x64_S64x64_S4096x64_1_0_0_1_n_n_wf : DotDims.WF S4096x64 S64x64 S4096x64 [1] [0] [0] [1] [] []
  dot_S4096x64_S64x4096_S4096x4096_1_0_0_1_n_n_wf : DotDims.WF S4096x64 S64x4096 S4096x4096 [1] [0] [0] [1] [] []

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.KernelRun.lean ====
/-
  The kernel program's run with its result kept.

  The program is a stretch of host operations (the three row gathers), then two kernel regions. Every weakly fair
  execution from any launch memory terminates without a fault; at the end each argument array is as launched and the
  result array holds the contents the second region's write-backs leave: the last boundary's contents at the result
  buffer. The boundary contents are a fold through the program: the launch memory, then the host operations applied,
  then each region's arrays replaced by what its pipeline leaves.
-/
import proofs.«125533_j87866440942280_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting; the result array ends at the last boundary's contents
    and the arguments end as launched. -/
theorem run_result : θ_run defs (onTc (τ := τ) (main (F := F))) ⟨m, fun _ => 0, ρ⟩ (fun r => ∀ c : Dev nD,
      r.2.mem ((c.tc : Thread nD τ).loc main_v22) = W3 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v22 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.RunValue

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.PooledLayers.lean ====
/-
  Three rounds of masked mean pooling over a row's neighbours, each followed by a linear map and the positive part, and
  the score of the resulting row against an item row.

  For one row: the state starts at the user's feature row `u`. Round `l` (0, 1, 2) adds to the state the mean over the
  `K` neighbours of the neighbour features weighted by the mask raised to the power `l + 1`, maps the sum by the rows of
  the weight matrix `W l`, adds the bias `b l` and keeps the positive part. The score of a user row against an item row
  is the sum of the products of their coordinates.

  Two arrangements of the same row function are stated. In the first the mask is applied to the already masked
  features again in every round, the `K` products are summed at once, and the sum is divided by the word of 50. In the
  second the mask's powers are formed first and applied to the raw features, the `K = 50` products are summed in five
  groups of ten consecutive neighbours, and the sum is multiplied by the real 1/50. They are equal on the extended reals
  by associativity of the product, by regrouping a finite sum, and because dividing by the real 50 is multiplying by
  1/50 for every extended real: no finiteness of the data is used.
-/
import Idealize.ShloMosaic.PureOps.Ideal
import Idealize.ShloMosaic.PureOps.Ideal.Laws
import Idealize.ShloMosaic.Lib.ValueIdx
import proofs.«125533_j87866440942280_2_alg».proof.Proof.LibGroupedSum

noncomputable section

open scoped BigOperators

namespace PooledLayers

open Idealize.ShloMosaic Idealize.ShloMosaic.ValueIdx

variable {D : ℕ}

/-- The stacked weight matrices, `W l` at `(l, j, d)`. -/
abbrev Weights (D : ℕ) := (⟨3, ![3, D, D]⟩ : Shape).Idx → EReal
/-- The stacked bias rows, `b l` at `(l, j)`. -/
abbrev Biases (D : ℕ) := (⟨2, ![3, D]⟩ : Shape).Idx → EReal

/-- One round's map of a state row: coordinate `j` is the positive part of the row against row `j` of `W l`, plus
    the bias. -/
def lin (Ws : Weights D) (bs : Biases D) (l : Fin 3) (x : Fin D → EReal) : Fin D → EReal :=
  fun j => max ((∑ d : Fin D, x d * Ws (ix3 l j d)) + bs (ix2 l j)) 0

/-- The word of the float 50. -/
abbrev fifty : EReal := Ideal.ofBits .f32 0x42480000#32

/-- The float 50 denotes the real 50. -/
theorem fifty_eq : fifty = ((50 : ℝ) : EReal) := by
  simp [fifty, Ideal.ofBits, Ideal.ieee, -EReal.coe_mul]; norm_num

/-- The mean over the neighbours of weighted features: their sum divided by the word of 50. -/
def meanAll {K : ℕ} (w : Fin K → Fin D → EReal) : Fin D → EReal :=
  fun d => Ideal.div (∑ k : Fin K, w k d) fifty

/-- FIRST ARRANGEMENT. The mask multiplies the masked features once more in every round. -/
def rowRemasked {K : ℕ} (Ws : Weights D) (bs : Biases D) (u : Fin D → EReal) (nb : Fin K → Fin D → EReal)
    (mk : Fin K → EReal) : Fin D → EReal :=
  lin Ws bs 2 (fun d =>
    lin Ws bs 1 (fun d =>
      lin Ws bs 0 (fun d => u d + meanAll (fun k d => nb k d * mk k) d) d
        + meanAll (fun k d => nb k d * mk k * mk k) d) d
      + meanAll (fun k d => nb k d * mk k * mk k * mk k) d)

/-- Neighbour `kk` of group `c`, groups of ten consecutive neighbours. -/
def chunk (c : Fin 5) (kk : Fin 10) : Fin 50 := ⟨c.val * 10 + kk.val, GroupedSum.group_lt (by norm_num) c kk⟩

/-- The sum over the fifty neighbours of features times a per-neighbour weight, group by group. -/
def sumGrouped (nb : Fin 50 → Fin D → EReal) (mp : Fin 50 → EReal) : Fin D → EReal :=
  fun d => ∑ c : Fin 5, ∑ kk : Fin 10, nb (chunk c kk) d * mp (chunk c kk)

/-- The real 1/50. -/
abbrev fiftieth : EReal := ((1 / 50 : ℝ) : EReal)

/-- SECOND ARRANGEMENT. The mask's powers multiply the raw features; grouped sums; the product with 1/50. -/
def rowGrouped (Ws : Weights D) (bs : Biases D) (u : Fin D → EReal) (nb : Fin 50 → Fin D → EReal)
    (mk : Fin 50 → EReal) : Fin D → EReal :=
  lin Ws bs 2 (fun d =>
    lin Ws bs 1 (fun d =>
      lin Ws bs 0 (fun d => u d + sumGrouped nb mk d * fiftieth) d
        + sumGrouped nb (fun k => mk k * mk k) d * fiftieth) d
      + sumGrouped nb (fun k => mk k * mk k * mk k) d * fiftieth)

/-- A grouped sum times 1/50 is the mean of the same products summed at once. -/
theorem sumGrouped_mul (nb : Fin 50 → Fin D → EReal) (mp : Fin 50 → EReal) (d : Fin D) :
    sumGrouped nb mp d * fiftieth = meanAll (fun k d => nb k d * mp k) d := by
  unfold sumGrouped meanAll
  rw [fifty_eq, Ideal.div_coe (by norm_num : (50 : ℝ) ≠ 0),
    GroupedSum.sum_groups (J := 5) (B := 10) (K := 50) (by norm_num) (fun k => nb k d * mp k)]
  rfl

/-- The two arrangements are one function of the row's data. -/
theorem rowGrouped_eq (Ws : Weights D) (bs : Biases D) (u : Fin D → EReal) (nb : Fin 50 → Fin D → EReal)
    (mk : Fin 50 → EReal) : rowGrouped Ws bs u nb mk = rowRemasked Ws bs u nb mk := by
  unfold rowGrouped rowRemasked
  simp only [sumGrouped_mul]
  have e2 : (fun (k : Fin 50) (d : Fin D) => nb k d * (mk k * mk k)) = fun k d => nb k d * mk k * mk k := by
    funext k d; rw [mul_assoc]
  have e3 : (fun (k : Fin 50) (d : Fin D) => nb k d * (mk k * mk k * mk k)) = fun k d => nb k d * mk k * mk k * mk k := by
    funext k d; rw [mul_assoc, mul_assoc, mul_assoc]
  rw [e2, e3]

/-- The score of a state row against an item row. -/
def dot (x y : Fin D → EReal) : EReal := ∑ d : Fin D, x d * y d

/-- THE RESULT as one function of the gathered arrays, the mask and the parameters: entry `(p, q)` is the score of
    user `p`'s final state against item `q`'s row. -/
def result {B B' K : ℕ} (U : (⟨2, ![B, D]⟩ : Shape).Idx → EReal) (It : (⟨2, ![B', D]⟩ : Shape).Idx → EReal)
    (Nb : (⟨3, ![B, K, D]⟩ : Shape).Idx → EReal) (Mk : (⟨2, ![B, K]⟩ : Shape).Idx → EReal)
    (Ws : Weights D) (bs : Biases D) : (⟨2, ![B, B']⟩ : Shape).Idx → EReal :=
  fun i => dot (rowRemasked Ws bs (fun d => U (ix2 (i 0) d)) (fun k d => Nb (ix3 (i 0) k d)) (fun k => Mk (ix2 (i 0) k)))
    (fun d => It (ix2 (i 1) d))

/-- The result at an entry given by its coordinates. -/
theorem result_apply {B B' K : ℕ} (U : (⟨2, ![B, D]⟩ : Shape).Idx → EReal) (It : (⟨2, ![B', D]⟩ : Shape).Idx → EReal)
    (Nb : (⟨3, ![B, K, D]⟩ : Shape).Idx → EReal) (Mk : (⟨2, ![B, K]⟩ : Shape).Idx → EReal)
    (Ws : Weights D) (bs : Biases D) (p : Fin B) (q : Fin B') :
    result U It Nb Mk Ws bs (ix2 p q)
      = dot (rowRemasked Ws bs (fun d => U (ix2 p d)) (fun k d => Nb (ix3 p k d)) (fun k => Mk (ix2 p k)))
          (fun d => It (ix2 q d)) := rfl

end PooledLayers

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«125533_j87866440942280_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.ScoreTile.lean ====
/-
  The score tile.

  The second kernel's body loads a tile of 1024 user-state rows and a tile of 1024 item rows, narrows both (the
  identity on extended reals), and multiplies the first by the transpose of the second into a zero accumulator:
  entry (p, q) of the stored tile is the sum over the 64 feature coordinates of state row p times item row q —
  the score of row p against row q.
-/
import proofs.«125533_j87866440942280_2_alg».proof.Proof.Gen.KernelIdeal.Frame
import proofs.«125533_j87866440942280_2_alg».proof.Proof.PooledLayers
import proofs.«125533_j87866440942280_2_alg».proof.Proof.LibTransposedRecord
import Idealize.ShloMosaic.Lib.Pipeline.Value
import Idealize.ShloMosaic.Lib.ValueIdx

set_option maxRecDepth 16384

noncomputable section

namespace Cert.KernelIdeal.ScoreTile

open Cert.KernelIdeal Cert.KernelIdeal.Gen
open Idealize.ShloMosaic Idealize.ShloMosaic.TcCoe Idealize.ShloMosaic.ValueIdx

/-- The whole-tile rectangles start at the origin. -/
theorem origin2 : (![0, 0] : Fin 2 → Nat) = fun _ => 0 := funext fun a => by fin_cases a <;> rfl

/-- The tile's arithmetic at an entry: the score of state row `p` against item row `q`. -/
theorem pay_apply (v0 v3 : Vec Ideal S1024x64 .f32) (p q : Fin 1024) :
    k1_pay1 (F := Ideal) v0 v3 (ix2 p q) = PooledLayers.dot (fun d => v0 (ix2 p d)) (fun d => v3 (ix2 q d)) := by
  unfold k1_pay1
  refine (TransposedRecord.matmul_zero_apply dot_S1024x64_S1024x64_S1024x1024_1_1_0_0_n_n rfl rfl rfl rfl rfl rfl
    _ _ none p q).trans ?_
  unfold PooledLayers.dot
  refine Finset.sum_congr rfl fun d _ => ?_
  rw [truncf_apply, truncf_apply, shapeCast_self, shapeCast_self]

/-- What the body leaves in the output tile, at an entry. -/
theorem out1_2_apply (x0 x1 : Vec Ideal S1024x64 .f32) (p q : Fin 1024) :
    out1_2 (F := Ideal) x0 x1 (ix2 p q) = PooledLayers.dot (fun d => x0 (ix2 p d)) (fun d => x1 (ix2 q d)) := by
  unfold out1_2
  rw [View.canon_unit_zero origin2]
  simp only [View.ld_unit_zero (S := S1024x64) origin2]
  exact pay_apply x0 x1 p q

end Cert.KernelIdeal.ScoreTile

end
-- ==== Proof.ScoreArray.lean ====
/-
  The score matrix as one array.

  The second kernel runs on a 4 × 4 grid. At point (a, b) it reads rows 1024·a … 1024·a + 1023 of the state array and
  rows 1024·b … 1024·b + 1023 of the item array, and writes the 1024 × 1024 tile (a, b) of the result. Entry (p, q) of
  that tile is the score of state row 1024·a + p against item row 1024·b + q, which is entry (1024·a + p, 1024·b + q)
  of the whole score matrix: every tile is the restriction of ONE function of the two arrays. The sixteen tiles cover
  the 4096 × 4096 result (row r lies in tile row r / 1024), so after the region the result array is that function.
-/
import proofs.«125533_j87866440942280_2_alg».proof.Proof.ScoreTile

set_option maxRecDepth 16384

noncomputable section

namespace Cert.KernelIdeal.ScoreArray

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The whole score matrix: entry (r, s) is the score of state row r against item row s. -/
def scores (X It : S4096x64.Idx → EReal) : S4096x4096.Idx → EReal :=
  fun i => PooledLayers.dot (fun d => X (ix2 (i 0) d)) (fun d => It (ix2 (i 1) d))

/-- A tile whose rows are rows a·1024 + p of the state array and whose columns are rows b·1024 + q of the item array
    is the restriction of the score matrix: stated over the literal tile types, the offsets as hypotheses. -/
theorem tile_eq (x0 x1 : Vec Ideal S1024x64 .f32) (X It : S4096x64.Idx → EReal)
    (j : S1024x1024.Idx) (i : S4096x4096.Idx)
    (h0 : ∀ d : Fin 64, x0 (ix2 (j 0) d) = X (ix2 (i 0) d))
    (h1 : ∀ d : Fin 64, x1 (ix2 (j 1) d) = It (ix2 (i 1) d)) :
    out1_2 (F := Ideal) x0 x1 j = scores X It i := by
  obtain ⟨p, q, rfl⟩ : ∃ (p q : Fin 1024), j = ix2 p q := ⟨j 0, j 1, eq_ix2 j⟩
  rw [ScoreTile.out1_2_apply]
  unfold scores PooledLayers.dot
  exact Finset.sum_congr rfl fun d _ => congrArg₂ (· * ·) (h0 d) (h1 d)

/-- The printed index maps, decided over the sixteen points: the state window moves with the tile's row index, the
    item window with its column index, and both indices stay below four. -/
theorem idx_facts : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3 ∧ win1_2.index t (1 : Fin 2) ≤ 3 :=
  (by decide +kernel : ∀ t : Fin grid1.N, _)

/-- Every tile position is some point's. -/
theorem idx_onto : ∀ (q0 q1 : Fin 4), ∃ t : Fin cfg1.N, win1_2.index t = ![q0.val, q1.val] :=
  (by decide +kernel : ∀ (q0 q1 : Fin 4), ∃ t : Fin grid1.N, win1_2.index t = ![q0.val, q1.val])

variable (V : (c : Dev nD) → (b : Ref sig .tc) → Buf (Elt Ideal) ((c : Thread nD τ).loc b))

/-- What point t writes back is tile t of the score matrix of the arrays the region finds. -/
theorem flushed_eq (c : Dev nD) (t : Fin cfg1.N) :
    (dat1 V c).flushed 2 t = ((cfg1.win 2).blk t).view.read (Elt Ideal) (scores (V c main_v21) (V c main_v13)) := by
  show (cfg1.win 2).cut (grid1.coords t) ((dat1 V c).after 2 t) = _
  rw [after1_2]
  obtain ⟨e0, e1, e2, e3, e4, e5⟩ := idx_facts t
  funext j
  show out1_2 (iblk1 V c 0 t) (iblk1 V c 1 t) j = scores (V c main_v21) (V c main_v13) (((cfg1.win 2).blk t).view.emb j)
  refine tile_eq _ _ _ _ j _ (fun d => ?_) (fun d => ?_)
  · show V c main_v21 (((cfg1.win 0).blk t).view.emb (ix2 (j 0) d)) = V c main_v21 (ix2 ((((cfg1.win 2).blk t).view.emb j) 0) d)
    refine congrArg (V c main_v21) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 64 + 1 * d.val = d.val; omega
  · show V c main_v13 (((cfg1.win 1).blk t).view.emb (ix2 (j 1) d)) = V c main_v13 (ix2 ((((cfg1.win 2).blk t).view.emb j) 1) d)
    refine congrArg (V c main_v13) (funext fun a => Fin.ext ?_)
    match a with
    | ⟨0, _⟩ => show win1_1.index t (0 : Fin 2) * 1024 + 1 * (j 1).val = win1_2.index t (1 : Fin 2) * 1024 + 1 * (j 1).val; omega
    | ⟨1, _⟩ => show win1_1.index t (1 : Fin 2) * 64 + 1 * d.val = d.val; omega

/-- An index of the result is in point t's tile iff each coordinate is in the tile's range on its axis. -/
theorem mem_blk (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v22).slice (win1_2.rect t)).set ↔ _
  rw [View.set_slice_whole, Rect.mem_set_unit]
  exact Iff.rfl

/-- Every entry of the result lies in the tile of some point that writes back. -/
theorem cover (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the region the result array is the score matrix of the state and item arrays the region found. -/
theorem final (c : Dev nD) : (dat1 V c).arrAt 2 cfg1.N = scores (V c main_v21) (V c main_v13) :=
  (dat1 V c).arrAt_eq_of_cover 2 (scores (V c main_v21) (V c main_v13)) (fun t _ => flushed_eq V c t) cover

end Cert.KernelIdeal.ScoreArray

end
-- ==== Proof.ConvArray.lean ====
/-
  The state array after the three rounds, as one array.

  The first kernel runs on 16 grid points. At point t it reads rows 256·t … 256·t + 255 of the neighbour features, of
  the mask and of the user rows, the whole weight stack and the whole bias stack, and writes rows 256·t … 256·t + 255
  of the state array. Row p of the tile it writes is the three-round row function (grouped arrangement) of row
  256·t + p of each input: every tile is the restriction of ONE function of the arrays, row by row. The sixteen tiles
  cover the 4096 rows (row r lies in tile r / 256), so after the region the state array is that function.
-/
import proofs.«125533_j87866440942280_2_alg».proof.Proof.Gen.KernelIdeal.Frame
import proofs.«125533_j87866440942280_2_alg».proof.Proof.PooledLayers
import Idealize.ShloMosaic.Lib.Pipeline.Value
import Idealize.ShloMosaic.Lib.ValueIdx

set_option maxRecDepth 16384

noncomputable section

namespace Cert.KernelIdeal.ConvArray

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The whole state array: row r is the three-round row function of row r of the user rows, of the neighbour
    features and of the mask. -/
def states (U : S4096x64.Idx → EReal) (Nb : S4096x50x64.Idx → EReal) (Mk : S4096x50.Idx → EReal)
    (Ws : S3x64x64.Idx → EReal) (bs : S3x64.Idx → EReal) : S4096x64.Idx → EReal :=
  fun i => PooledLayers.rowGrouped (D := 64) Ws bs (fun d => U (ix2 (i 0) d)) (fun k d => Nb (ix3 (i 0) k d))
    (fun k => Mk (ix2 (i 0) k)) (i 1)

/-- What the body leaves in a tile, entry by entry: the row function of the tile's own rows. -/
def TileSpec : Prop :=
  ∀ (x0 : Vec Ideal S256x50x64 .f32) (x1 : Vec Ideal S256x50 .f32) (x2 : Vec Ideal S256x64 .f32)
    (x3 : Vec Ideal S3x64x64 .f32) (x4 : Vec Ideal S3x64 .f32) (p : Fin 256) (j : Fin 64),
    out0_5 (F := Ideal) x0 x1 x2 x3 x4 (ix2 p j)
      = PooledLayers.rowGrouped (D := 64) x3 x4 (fun d => x2 (ix2 p d)) (fun k d => x0 (ix3 p k d)) (fun k => x1 (ix2 p k)) j

/-- A tile whose row p is row i₀ of the arrays, read at the same column, is the restriction of the state array:
    stated over the literal tile types, the correspondences as hypotheses. -/
theorem tile_eq (htile : TileSpec) (x0 : Vec Ideal S256x50x64 .f32) (x1 : Vec Ideal S256x50 .f32)
    (x2 : Vec Ideal S256x64 .f32) (x3 : Vec Ideal S3x64x64 .f32) (x4 : Vec Ideal S3x64 .f32)
    (U : S4096x64.Idx → EReal) (Nb : S4096x50x64.Idx → EReal) (Mk : S4096x50.Idx → EReal)
    (Ws : S3x64x64.Idx → EReal) (bs : S3x64.Idx → EReal)
    (j : S256x64.Idx) (i : S4096x64.Idx) (hcol : (j 1 : Fin 64) = i 1)
    (h0 : ∀ (k : Fin 50) (d : Fin 64), x0 (ix3 (j 0) k d) = Nb (ix3 (i 0) k d))
    (h1 : ∀ k : Fin 50, x1 (ix2 (j 0) k) = Mk (ix2 (i 0) k))
    (h2 : ∀ d : Fin 64, x2 (ix2 (j 0) d) = U (ix2 (i 0) d))
    (h3 : ∀ y, x3 y = Ws y) (h4 : ∀ y, x4 y = bs y) :
    out0_5 (F := Ideal) x0 x1 x2 x3 x4 j = states U Nb Mk Ws bs i := by
  obtain ⟨p, jj, rfl⟩ : ∃ (p : Fin 256) (jj : Fin 64), j = ix2 p jj := ⟨j 0, j 1, eq_ix2 j⟩
  rw [htile x0 x1 x2 x3 x4 p jj]
  unfold states
  have e0 : (fun (k : Fin 50) (d : Fin 64) => x0 (ix3 p k d)) = fun k d => Nb (ix3 (i 0) k d) :=
    funext fun k => funext fun d => h0 k d
  have e1 : (fun k : Fin 50 => x1 (ix2 p k)) = fun k => Mk (ix2 (i 0) k) := funext h1
  have e2 : (fun d : Fin 64 => x2 (ix2 p d)) = fun d => U (ix2 (i 0) d) := funext h2
  have e3 : x3 = Ws := funext h3
  have e4 : x4 = bs := funext h4
  have e5 : jj = i 1 := hcol
  rw [e0, e1, e2, e3, e4, e5]

/-- The printed index maps, decided over the sixteen points: the three row-blocked inputs move with the output's
    row index, on their other axes every window sits at zero, the weight and bias windows sit at zero throughout,
    and the row index stays below sixteen. -/
theorem idx_facts : ∀ t : Fin cfg0.N,
    win0_0.index t (0 : Fin 3) = win0_5.index t (0 : Fin 2) ∧ win0_0.index t (1 : Fin 3) = 0 ∧ win0_0.index t (2 : Fin 3) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Every row block is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

variable (V : (c : Dev nD) → (b : Ref sig .tc) → Buf (Elt Ideal) ((c : Thread nD τ).loc b))

/-- What point t writes back is tile t of the state array of the arrays the region finds. -/
theorem flushed_eq (htile : TileSpec) (c : Dev nD) (t : Fin cfg0.N) :
    (dat0 V c).flushed 5 t = ((cfg0.win 5).blk t).view.read (Elt Ideal)
      (states (V c main_v6) (V c main_v20) (V c main_arg3) (V c main_arg6) (V c main_arg7)) := by
  show (cfg0.win 5).cut (grid0.coords t) ((dat0 V c).after 5 t) = _
  rw [after0_5]
  obtain ⟨a00, a01, a02, a10, a11, a20, a21, a30, a31, a32, a40, a41, a5le, a51⟩ := idx_facts t
  funext j
  show out0_5 (iblk0 V c 0 t) (iblk0 V c 1 t) (iblk0 V c 2 t) (iblk0 V c 3 t) (iblk0 V c 4 t) j
    = states (V c main_v6) (V c main_v20) (V c main_arg3) (V c main_arg6) (V c main_arg7) (((cfg0.win 5).blk t).view.emb j)
  refine tile_eq htile _ _ _ _ _ _ _ _ _ _ j _ ?_ (fun k d => ?_) (fun k => ?_) (fun d => ?_) (fun y => ?_) (fun y => ?_)
  · refine Fin.ext ?_
    show (j 1).val = win0_5.index t (1 : Fin 2) * 64 + 1 * (j 1).val
    omega
  · show V c main_v20 (((cfg0.win 0).blk t).view.emb (ix3 (j 0) k d)) = V c main_v20 (ix3 ((((cfg0.win 5).blk t).view.emb j) 0) k d)
    refine congrArg (V c main_v20) (funext fun a => Fin.ext ?_)
    match a with
    | ⟨0, _⟩ => show win0_0.index t (0 : Fin 3) * 256 + 1 * (j 0).val = win0_5.index t (0 : Fin 2) * 256 + 1 * (j 0).val; omega
    | ⟨1, _⟩ => show win0_0.index t (1 : Fin 3) * 50 + 1 * k.val = k.val; omega
    | ⟨2, _⟩ => show win0_0.index t (2 : Fin 3) * 64 + 1 * d.val = d.val; omega
  · show V c main_arg3 (((cfg0.win 1).blk t).view.emb (ix2 (j 0) k)) = V c main_arg3 (ix2 ((((cfg0.win 5).blk t).view.emb j) 0) k)
    refine congrArg (V c main_arg3) (funext fun a => Fin.ext ?_)
    match a with
    | ⟨0, _⟩ => show win0_1.index t (0 : Fin 2) * 256 + 1 * (j 0).val = win0_5.index t (0 : Fin 2) * 256 + 1 * (j 0).val; omega
    | ⟨1, _⟩ => show win0_1.index t (1 : Fin 2) * 50 + 1 * k.val = k.val; omega
  · show V c main_v6 (((cfg0.win 2).blk t).view.emb (ix2 (j 0) d)) = V c main_v6 (ix2 ((((cfg0.win 5).blk t).view.emb j) 0) d)
    refine congrArg (V c main_v6) (funext fun a => Fin.ext ?_)
    match a with
    | ⟨0, _⟩ => show win0_2.index t (0 : Fin 2) * 256 + 1 * (j 0).val = win0_5.index t (0 : Fin 2) * 256 + 1 * (j 0).val; omega
    | ⟨1, _⟩ => show win0_2.index t (1 : Fin 2) * 64 + 1 * d.val = d.val; omega
  · show V c main_arg6 (((cfg0.win 3).blk t).view.emb y) = V c main_arg6 y
    refine congrArg (V c main_arg6) (funext fun a => Fin.ext ?_)
    match a with
    | ⟨0, _⟩ => show win0_3.index t (0 : Fin 3) * 3 + 1 * (y 0).val = (y 0).val; omega
    | ⟨1, _⟩ => show win0_3.index t (1 : Fin 3) * 64 + 1 * (y 1).val = (y 1).val; omega
    | ⟨2, _⟩ => show win0_3.index t (2 : Fin 3) * 64 + 1 * (y 2).val = (y 2).val; omega
  · show V c main_arg7 (((cfg0.win 4).blk t).view.emb y) = V c main_arg7 y
    refine congrArg (V c main_arg7) (funext fun a => Fin.ext ?_)
    match a with
    | ⟨0, _⟩ => show win0_4.index t (0 : Fin 2) * 3 + 1 * (y 0).val = (y 0).val; omega
    | ⟨1, _⟩ => show win0_4.index t (1 : Fin 2) * 64 + 1 * (y 1).val = (y 1).val; omega

/-- An index of the state array is in point t's tile iff each coordinate is in the tile's range on its axis. -/
theorem mem_blk (t : Fin cfg0.N) (i : S4096x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v21).slice (win0_5.rect t)).set ↔ _
  rw [View.set_slice_whole, Rect.mem_set_unit]
  exact Iff.rfl

/-- Every entry of the state array lies in the tile of some point that writes back. -/
theorem cover (i : S4096x64.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 64 ≤ (i 1).val ∧ (i 1).val < win0_5.index t (1 : Fin 2) * 64 + 64; omega

/-- After the region the state array is the three-round function of the arrays the region found. -/
theorem final (htile : TileSpec) (c : Dev nD) :
    (dat0 V c).arrAt 5 cfg0.N = states (V c main_v6) (V c main_v20) (V c main_arg3) (V c main_arg6) (V c main_arg7) :=
  (dat0 V c).arrAt_eq_of_cover 5 (states (V c main_v6) (V c main_v20) (V c main_arg3) (V c main_arg6) (V c main_arg7))
    (fun t _ => flushed_eq V htile c t) cover

end Cert.KernelIdeal.ConvArray

end
-- ==== Proof.EntryContents.lean ====
/-
  What the first kernel region finds in its buffers.

  Before the first region the program runs a stretch of host operations: three row gathers, each behind the wrap of
  negative indices. They are the same operations, in the same order, on the same arguments as the first operations of
  the reference program. So the gathered user rows, item rows and neighbour rows the region finds are the reference's
  own gather stages applied to the launch memory's arguments — the gathers are never opened —, and the mask, weight and
  bias arguments are found as launched, no host operation writing them.
-/
import proofs.«125533_j87866440942280_2_alg».proof.Proof.Gen.KernelIdeal.Frame
import proofs.«125533_j87866440942280_2_alg».proof.Proof.Gen.ReferenceIdeal.Read
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The gathered user rows. -/
theorem users (c : Dev nD) :
    (V1 m ρ c main_v6 : S4096x64.Idx → EReal)
      = Cert.ReferenceIdeal.Read.val_main_v6 (F := Ideal) (m ((c : Thread nD τ).loc main_arg0)) (m ((c : Thread nD τ).loc main_arg4)) := by
  show StableHlo.after hostOps0 (W0 m ρ c) (Proc.devRef .tc main_v6) = _
  after_results
  rfl

/-- The gathered item rows. -/
theorem items (c : Dev nD) :
    (V1 m ρ c main_v13 : S4096x64.Idx → EReal)
      = Cert.ReferenceIdeal.Read.val_main_v13 (F := Ideal) (m ((c : Thread nD τ).loc main_arg1)) (m ((c : Thread nD τ).loc main_arg5)) := by
  show StableHlo.after hostOps0 (W0 m ρ c) (Proc.devRef .tc main_v13) = _
  after_results
  rfl

/-- The gathered neighbour rows. -/
theorem neighbours (c : Dev nD) :
    (V1 m ρ c main_v20 : S4096x50x64.Idx → EReal)
      = Cert.ReferenceIdeal.Read.val_main_v20 (F := Ideal) (m ((c : Thread nD τ).loc main_arg2)) (m ((c : Thread nD τ).loc main_arg4)) := by
  show StableHlo.after hostOps0 (W0 m ρ c) (Proc.devRef .tc main_v20) = _
  after_results_simp
  rfl

/-- The mask is found as launched. -/
theorem mask (c : Dev nD) : V1 m ρ c main_arg3 = m ((c : Thread nD τ).loc main_arg3) := by
  show StableHlo.after hostOps0 (W0 m ρ c) (Proc.devRef .tc main_arg3) = _
  after_results

/-- The weights are found as launched. -/
theorem weights (c : Dev nD) : V1 m ρ c main_arg6 = m ((c : Thread nD τ).loc main_arg6) := by
  show StableHlo.after hostOps0 (W0 m ρ c) (Proc.devRef .tc main_arg6) = _
  after_results

/-- The biases are found as launched. -/
theorem biases (c : Dev nD) : V1 m ρ c main_arg7 = m ((c : Thread nD τ).loc main_arg7) := by
  show StableHlo.after hostOps0 (W0 m ρ c) (Proc.devRef .tc main_arg7) = _
  after_results

end Cert.KernelIdeal.Entry

end
-- ==== Proof.KernelResult.lean ====
/-
  The kernel program's result as the result function of the gathered rows.

  The result buffer at the last boundary holds what the second region's write-backs leave: the score matrix of the
  state array and the item rows that region found. The state array it found is what the first region's write-backs
  left: the three-round function (grouped arrangement) of the gathered user rows, the gathered neighbour rows, the
  mask, the weights and the biases the first region found; the item rows pass through the first region untouched.
  What the first region found are the host gathers of the launch memory's arguments and the arguments themselves.
  The grouped arrangement of a row equals the arrangement that re-applies the mask every round, so the whole is the
  specification's result function.
-/
import proofs.«125533_j87866440942280_2_alg».proof.Proof.KernelRun
import proofs.«125533_j87866440942280_2_alg».proof.Proof.ScoreArray
import proofs.«125533_j87866440942280_2_alg».proof.Proof.ConvArray
import proofs.«125533_j87866440942280_2_alg».proof.Proof.EntryContents
import proofs.«125533_j87866440942280_2_alg».proof.Proof.PooledLayers

set_option maxRecDepth 16384

noncomputable section

namespace Cert.KernelIdeal.ResultValue

open Cert.KernelIdeal Cert.KernelIdeal.Gen
open Idealize.ShloMosaic Idealize.ShloMosaic.TcCoe Idealize.ShloMosaic.ValueIdx
open Idealize.SL Idealize.SL.Sem

/-- The score matrix of the three-round state array is the specification's result: row by row, the grouped
    arrangement equals the one that re-applies the mask every round. -/
theorem scores_states (U It : S4096x64.Idx → EReal) (Nb : S4096x50x64.Idx → EReal) (Mk : S4096x50.Idx → EReal)
    (Ws : S3x64x64.Idx → EReal) (bs : S3x64.Idx → EReal) :
    ScoreArray.scores (ConvArray.states U Nb Mk Ws bs) It = PooledLayers.result (D := 64) U It Nb Mk Ws bs := by
  funext i
  obtain ⟨p, q, rfl⟩ : ∃ (p q : Fin 4096), i = ix2 p q := ⟨i 0, i 1, eq_ix2 i⟩
  rw [PooledLayers.result_apply]
  show PooledLayers.dot (fun d => ConvArray.states U Nb Mk Ws bs (ix2 p d)) (fun d => It (ix2 q d)) = _
  have hrow : (fun d : Fin 64 => ConvArray.states U Nb Mk Ws bs (ix2 p d))
      = PooledLayers.rowRemasked (D := 64) Ws bs (fun d => U (ix2 p d)) (fun k d => Nb (ix3 p k d)) (fun k => Mk (ix2 p k)) := by
    funext d
    show PooledLayers.rowGrouped (D := 64) Ws bs (fun d => U (ix2 p d)) (fun k d => Nb (ix3 p k d)) (fun k => Mk (ix2 p k)) d = _
    rw [PooledLayers.rowGrouped_eq]
  rw [hrow]

variable (m : (ℓ : Loc nD τ sig) → Buf (Elt Ideal) ℓ) (ρ : Dev nD → PrngReg)

/-- The state array the second region finds is what the first region left. -/
theorem state_array (htile : ConvArray.TileSpec) (c : Dev nD) :
    (V2 m ρ c main_v21 : S4096x64.Idx → EReal)
      = ConvArray.states (V1 m ρ c main_v6) (V1 m ρ c main_v20) (V1 m ρ c main_arg3) (V1 m ρ c main_arg6) (V1 m ρ c main_arg7) := by
  show W2 m ρ c (Proc.devRef .tc (Pipeline.arrRef spec0 5)) = _
  rw [W2_arr]
  exact ConvArray.final (V1 m ρ) htile c

/-- The item rows pass through the first region untouched. -/
theorem item_array (c : Dev nD) : V2 m ρ c main_v13 = V1 m ρ c main_v13 :=
  W2_of_ne m ρ c main_v13 (by decide)

/-- The result buffer at the last boundary is the specification's result function of the host gathers of the
    launch memory's arguments, of its mask and of its parameters. -/
theorem result_array (htile : ConvArray.TileSpec) (c : Dev nD) :
    (W3 m ρ c (Proc.devRef .tc main_v22) : S4096x4096.Idx → EReal)
      = PooledLayers.result (D := 64)
          (Cert.ReferenceIdeal.Read.val_main_v6 (F := Ideal) (m ((c : Thread nD τ).loc main_arg0)) (m ((c : Thread nD τ).loc main_arg4)))
          (Cert.ReferenceIdeal.Read.val_main_v13 (F := Ideal) (m ((c : Thread nD τ).loc main_arg1)) (m ((c : Thread nD τ).loc main_arg5)))
          (Cert.ReferenceIdeal.Read.val_main_v20 (F := Ideal) (m ((c : Thread nD τ).loc main_arg2)) (m ((c : Thread nD τ).loc main_arg4)))
          (m ((c : Thread nD τ).loc main_arg3)) (m ((c : Thread nD τ).loc main_arg6)) (m ((c : Thread nD τ).loc main_arg7)) := by
  show W3 m ρ c (Proc.devRef .tc (Pipeline.arrRef spec1 2)) = _
  rw [W3_arr, ScoreArray.final (V2 m ρ) c, state_array m ρ htile c, item_array m ρ c, scores_states,
    Entry.users m ρ c, Entry.items m ρ c, Entry.neighbours m ρ c, Entry.mask m ρ c, Entry.weights m ρ c, Entry.biases m ρ c]

end Cert.KernelIdeal.ResultValue

end
-- ==== Proof.ReferenceRows.lean ====
/-
  The reference's result as one function of the gathered rows, the mask and the parameters.

  Entry (p, q) of the result is the sum over the 64 coordinates of user p's final state times item q's row. The final
  state is reached in three rounds: each round multiplies the (already masked) neighbour features by the mask once
  more, sums the fifty neighbours, divides by the word of 50, adds the quotient to the state, maps the sum by the
  round's weight matrix (the slab of the stack, read transposed), adds the round's bias row and keeps the positive
  part. Every stage is read at a row p and a coordinate, outermost operation first; the three gathered arrays are
  never opened: they stay the functions of their operands they are.
-/
import proofs.«125533_j87866440942280_2_alg».proof.Proof.Gen.ReferenceIdeal.Read
import proofs.«125533_j87866440942280_2_alg».proof.Proof.PooledLayers
import Idealize.ShloMosaic.PureOps.Ideal
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 : (⟨S4096, .i32⟩ : BufTy).Contents (Elt Ideal)) (x2 : (⟨S4096x50, .i32⟩ : BufTy).Contents (Elt Ideal))
  (x3 : (⟨S4096x50, .f32⟩ : BufTy).Contents (Elt Ideal)) (x4 x5 : (⟨S100000x64, .f32⟩ : BufTy).Contents (Elt Ideal))
  (x6 : (⟨S3x64x64, .f32⟩ : BufTy).Contents (Elt Ideal)) (x7 : (⟨S3x64, .f32⟩ : BufTy).Contents (Elt Ideal))

/-! ## The mask, repeated along the feature axis -/

/-- The mask broadcast to the features' shape reads the mask at (row, neighbour). -/
theorem mask22 (p : Fin 4096) (k : Fin 50) (d : Fin 64) :
    val_main_v22 (F := Ideal) x3 (ix3 p k d) = x3 (ix2 p k) := by
  rw [val_main_v22_apply, val_main_v21_apply]
  exact congrArg x3 (funext fun a => Fin.ext (by match a with | ⟨0, _⟩ => rfl | ⟨1, _⟩ => rfl))

theorem mask38 (p : Fin 4096) (k : Fin 50) (d : Fin 64) :
    val_main_v38 (F := Ideal) x3 (ix3 p k d) = x3 (ix2 p k) := by
  rw [val_main_v38_apply, val_main_v21_apply]
  exact congrArg x3 (funext fun a => Fin.ext (by match a with | ⟨0, _⟩ => rfl | ⟨1, _⟩ => rfl))

theorem mask54 (p : Fin 4096) (k : Fin 50) (d : Fin 64) :
    val_main_v54 (F := Ideal) x3 (ix3 p k d) = x3 (ix2 p k) := by
  rw [val_main_v54_apply, val_main_v21_apply]
  exact congrArg x3 (funext fun a => Fin.ext (by match a with | ⟨0, _⟩ => rfl | ⟨1, _⟩ => rfl))

/-! ## The masked features: the mask applied once, twice, three times -/

theorem v23_at (p : Fin 4096) (k : Fin 50) (d : Fin 64) :
    val_main_v23 (F := Ideal) x2 x3 x4 (ix3 p k d) = val_main_v20 (F := Ideal) x2 x4 (ix3 p k d) * x3 (ix2 p k) := by
  rw [val_main_v23_apply, mask22, Ideal.mulf_def]

theorem v39_at (p : Fin 4096) (k : Fin 50) (d : Fin 64) :
    val_main_v39 (F := Ideal) x2 x3 x4 (ix3 p k d)
      = val_main_v20 (F := Ideal) x2 x4 (ix3 p k d) * x3 (ix2 p k) * x3 (ix2 p k) := by
  rw [val_main_v39_apply, v23_at, mask38, Ideal.mulf_def]

theorem v55_at (p : Fin 4096) (k : Fin 50) (d : Fin 64) :
    val_main_v55 (F := Ideal) x2 x3 x4 (ix3 p k d)
      = val_main_v20 (F := Ideal) x2 x4 (ix3 p k d) * x3 (ix2 p k) * x3 (ix2 p k) * x3 (ix2 p k) := by
  rw [val_main_v55_apply, v39_at, mask54, Ideal.mulf_def]

/-! ## The mean over the fifty neighbours -/

/-- The index the sum over the middle axis reads: (row, neighbour, coordinate). -/
theorem idx24 (p : Fin 4096) (d : Fin 64) (k : Fin 50) : idx_main_v24 (ix2 p d) k = ix3 p k d :=
  funext fun a => Fin.ext (by match a with | ⟨0, _⟩ => rfl | ⟨1, _⟩ => rfl | ⟨2, _⟩ => rfl)

theorem idx40 (p : Fin 4096) (d : Fin 64) (k : Fin 50) : idx_main_v40 (ix2 p d) k = ix3 p k d :=
  funext fun a => Fin.ext (by match a with | ⟨0, _⟩ => rfl | ⟨1, _⟩ => rfl | ⟨2, _⟩ => rfl)

theorem idx56 (p : Fin 4096) (d : Fin 64) (k : Fin 50) : idx_main_v56 (ix2 p d) k = ix3 p k d :=
  funext fun a => Fin.ext (by match a with | ⟨0, _⟩ => rfl | ⟨1, _⟩ => rfl | ⟨2, _⟩ => rfl)

/-- Round 0's mean: the sum from the zero word, divided by the word of 50. -/
theorem v26_at (p : Fin 4096) (d : Fin 64) :
    val_main_v26 (F := Ideal) x2 x3 x4 (ix2 p d)
      = PooledLayers.meanAll (fun (k : Fin 50) (d : Fin 64) => val_main_v20 (F := Ideal) x2 x4 (ix3 p k d) * x3 (ix2 p k)) d := by
  rw [val_main_v26_apply, val_main_v24_apply, val_main_v25_apply, val_main_cst_apply, val_main_cst_5_apply,
    Ideal.hostDivf_def, Ideal.ofBits_def, Ideal.ofBits_def, Ideal.ofBits_zero_f32, zero_add]
  unfold PooledLayers.meanAll
  refine congrArg (Ideal.div · _) (Finset.sum_congr rfl fun k _ => ?_)
  rw [idx24, v23_at]

theorem v42_at (p : Fin 4096) (d : Fin 64) :
    val_main_v42 (F := Ideal) x2 x3 x4 (ix2 p d)
      = PooledLayers.meanAll (fun (k : Fin 50) (d : Fin 64) =>
          val_main_v20 (F := Ideal) x2 x4 (ix3 p k d) * x3 (ix2 p k) * x3 (ix2 p k)) d := by
  rw [val_main_v42_apply, val_main_v40_apply, val_main_v41_apply, val_main_cst_6_apply, val_main_cst_7_apply,
    Ideal.hostDivf_def, Ideal.ofBits_def, Ideal.ofBits_def, Ideal.ofBits_zero_f32, zero_add]
  unfold PooledLayers.meanAll
  refine congrArg (Ideal.div · _) (Finset.sum_congr rfl fun k _ => ?_)
  rw [idx40, v39_at]

theorem v58_at (p : Fin 4096) (d : Fin 64) :
    val_main_v58 (F := Ideal) x2 x3 x4 (ix2 p d)
      = PooledLayers.meanAll (fun (k : Fin 50) (d : Fin 64) =>
          val_main_v20 (F := Ideal) x2 x4 (ix3 p k d) * x3 (ix2 p k) * x3 (ix2 p k) * x3 (ix2 p k)) d := by
  rw [val_main_v58_apply, val_main_v56_apply, val_main_v57_apply, val_main_cst_8_apply, val_main_cst_9_apply,
    Ideal.hostDivf_def, Ideal.ofBits_def, Ideal.ofBits_def, Ideal.ofBits_zero_f32, zero_add]
  unfold PooledLayers.meanAll
  refine congrArg (Ideal.div · _) (Finset.sum_congr rfl fun k _ => ?_)
  rw [idx56, v55_at]

/-! ## The weight slabs, read transposed, and the bias rows -/

/-- Slab 0 of the weight stack, sliced out, read as a matrix and transposed: at (k, j) the stack at (0, j, k). -/
theorem slab0 (k j : Fin 64) : val_main_v30 (F := Ideal) x6 (ix2 k j) = x6 (ix3 (0 : Fin 3) j k) := by
  rw [val_main_v30_apply, val_main_v29_apply, val_main_v28_apply]
  have hj := j.isLt
  have hk := k.isLt
  exact congrArg x6 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

theorem slab1 (k j : Fin 64) : val_main_v46 (F := Ideal) x6 (ix2 k j) = x6 (ix3 (1 : Fin 3) j k) := by
  rw [val_main_v46_apply, val_main_v45_apply, val_main_v44_apply]
  have hj := j.isLt
  have hk := k.isLt
  exact congrArg x6 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

theorem slab2 (k j : Fin 64) : val_main_v62 (F := Ideal) x6 (ix2 k j) = x6 (ix3 (2 : Fin 3) j k) := by
  rw [val_main_v62_apply, val_main_v61_apply, val_main_v60_apply]
  have hj := j.isLt
  have hk := k.isLt
  exact congrArg x6 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- Row 0 of the bias stack, sliced out and repeated over the rows: at (p, j) the stack at (0, j). -/
theorem bias0 (p : Fin 4096) (j : Fin 64) : val_main_v35 (F := Ideal) x7 (ix2 p j) = x7 (ix2 (0 : Fin 3) j) := by
  rw [val_main_v35_apply, val_main_v34_apply, val_main_v33_apply, val_main_v32_apply]
  have hj := j.isLt
  exact congrArg x7 (funext fun a => Fin.ext (by
    match a with
    | ⟨0, _⟩ => rfl
    | ⟨1, _⟩ => show j.val % 64 = j.val; omega))

theorem bias1 (p : Fin 4096) (j : Fin 64) : val_main_v51 (F := Ideal) x7 (ix2 p j) = x7 (ix2 (1 : Fin 3) j) := by
  rw [val_main_v51_apply, val_main_v50_apply, val_main_v49_apply, val_main_v48_apply]
  have hj := j.isLt
  exact congrArg x7 (funext fun a => Fin.ext (by
    match a with
    | ⟨0, _⟩ => rfl
    | ⟨1, _⟩ => show j.val % 64 = j.val; omega))

theorem bias2 (p : Fin 4096) (j : Fin 64) : val_main_v67 (F := Ideal) x7 (ix2 p j) = x7 (ix2 (2 : Fin 3) j) := by
  rw [val_main_v67_apply, val_main_v66_apply, val_main_v65_apply, val_main_v64_apply]
  have hj := j.isLt
  exact congrArg x7 (funext fun a => Fin.ext (by
    match a with
    | ⟨0, _⟩ => rfl
    | ⟨1, _⟩ => show j.val % 64 = j.val; omega))

/-- The array the positive part is taken against is zero everywhere. -/
theorem zero0 (i : S4096x64.Idx) : val_main_call0_v0 (F := Ideal) i = 0 := by
  rw [val_main_call0_v0_apply, val_main_call0_cst_apply, Ideal.ofBits_def, Ideal.ofBits_zero_f32]

theorem zero1 (i : S4096x64.Idx) : val_main_call1_v0 (F := Ideal) i = 0 := by
  rw [val_main_call1_v0_apply, val_main_call1_cst_apply, Ideal.ofBits_def, Ideal.ofBits_zero_f32]

theorem zero2 (i : S4096x64.Idx) : val_main_call2_v0 (F := Ideal) i = 0 := by
  rw [val_main_call2_v0_apply, val_main_call2_cst_apply, Ideal.ofBits_def, Ideal.ofBits_zero_f32]

/-! ## The indices a product of a state by a slab reads -/

theorem lidx31 (p : Fin 4096) (j k : Fin 64) : lidx_main_v31 (ix2 p j) k = ix2 p k :=
  funext fun a => Fin.ext (by match a with | ⟨0, _⟩ => rfl | ⟨1, _⟩ => rfl)
theorem ridx31 (p : Fin 4096) (j k : Fin 64) : ridx_main_v31 (ix2 p j) k = ix2 k j :=
  funext fun a => Fin.ext (by match a with | ⟨0, _⟩ => rfl | ⟨1, _⟩ => rfl)
theorem lidx47 (p : Fin 4096) (j k : Fin 64) : lidx_main_v47 (ix2 p j) k = ix2 p k :=
  funext fun a => Fin.ext (by match a with | ⟨0, _⟩ => rfl | ⟨1, _⟩ => rfl)
theorem ridx47 (p : Fin 4096) (j k : Fin 64) : ridx_main_v47 (ix2 p j) k = ix2 k j :=
  funext fun a => Fin.ext (by match a with | ⟨0, _⟩ => rfl | ⟨1, _⟩ => rfl)
theorem lidx63 (p : Fin 4096) (j k : Fin 64) : lidx_main_v63 (ix2 p j) k = ix2 p k :=
  funext fun a => Fin.ext (by match a with | ⟨0, _⟩ => rfl | ⟨1, _⟩ => rfl)
theorem ridx63 (p : Fin 4096) (j k : Fin 64) : ridx_main_v63 (ix2 p j) k = ix2 k j :=
  funext fun a => Fin.ext (by match a with | ⟨0, _⟩ => rfl | ⟨1, _⟩ => rfl)
theorem lidx71 (p q : Fin 4096) (k : Fin 64) : lidx_main_v71 (ix2 p q) k = ix2 p k :=
  funext fun a => Fin.ext (by match a with | ⟨0, _⟩ => rfl | ⟨1, _⟩ => rfl)
theorem ridx71 (p q : Fin 4096) (k : Fin 64) : ridx_main_v71 (ix2 p q) k = ix2 k q :=
  funext fun a => Fin.ext (by match a with | ⟨0, _⟩ => rfl | ⟨1, _⟩ => rfl)
theorem idx70 (k : Fin 64) (q : Fin 4096) : idx_main_v70 (ix2 k q) = ix2 q k :=
  funext fun a => Fin.ext (by match a with | ⟨0, _⟩ => rfl | ⟨1, _⟩ => rfl)

/-! ## The three rounds, read at a row -/

/-- Round 0's input state: the user's row plus the mean of the neighbours masked once. -/
theorem v27_at (p : Fin 4096) (d : Fin 64) :
    val_main_v27 (F := Ideal) x0 x2 x3 x4 (ix2 p d)
      = val_main_v6 (F := Ideal) x0 x4 (ix2 p d)
        + PooledLayers.meanAll (fun (k : Fin 50) (d : Fin 64) => val_main_v20 (F := Ideal) x2 x4 (ix3 p k d) * x3 (ix2 p k)) d := by
  rw [val_main_v27_apply, v26_at, Ideal.addf_def]

/-- Round 0's output: the linear map by slab 0, the bias row 0, the positive part. -/
theorem v37_at (p : Fin 4096) (j : Fin 64) :
    val_main_v37 (F := Ideal) x0 x2 x3 x4 x6 x7 (ix2 p j)
      = PooledLayers.lin (D := 64) x6 x7 0 (fun d => val_main_v27 (F := Ideal) x0 x2 x3 x4 (ix2 p d)) j := by
  rw [val_main_v37_apply, val_main_v36_apply, val_main_v31_apply, bias0, zero0, Ideal.maximumf_def, Ideal.addf_def]
  unfold PooledLayers.lin
  refine congrArg (max · 0) (congrArg (· + _) (Finset.sum_congr rfl fun k _ => ?_))
  rw [lidx31, ridx31, slab0]

theorem v43_at (p : Fin 4096) (d : Fin 64) :
    val_main_v43 (F := Ideal) x0 x2 x3 x4 x6 x7 (ix2 p d)
      = val_main_v37 (F := Ideal) x0 x2 x3 x4 x6 x7 (ix2 p d)
        + PooledLayers.meanAll (fun (k : Fin 50) (d : Fin 64) =>
            val_main_v20 (F := Ideal) x2 x4 (ix3 p k d) * x3 (ix2 p k) * x3 (ix2 p k)) d := by
  rw [val_main_v43_apply, v42_at, Ideal.addf_def]

theorem v53_at (p : Fin 4096) (j : Fin 64) :
    val_main_v53 (F := Ideal) x0 x2 x3 x4 x6 x7 (ix2 p j)
      = PooledLayers.lin (D := 64) x6 x7 1 (fun d => val_main_v43 (F := Ideal) x0 x2 x3 x4 x6 x7 (ix2 p d)) j := by
  rw [val_main_v53_apply, val_main_v52_apply, val_main_v47_apply, bias1, zero1, Ideal.maximumf_def, Ideal.addf_def]
  unfold PooledLayers.lin
  refine congrArg (max · 0) (congrArg (· + _) (Finset.sum_congr rfl fun k _ => ?_))
  rw [lidx47, ridx47, slab1]

theorem v59_at (p : Fin 4096) (d : Fin 64) :
    val_main_v59 (F := Ideal) x0 x2 x3 x4 x6 x7 (ix2 p d)
      = val_main_v53 (F := Ideal) x0 x2 x3 x4 x6 x7 (ix2 p d)
        + PooledLayers.meanAll (fun (k : Fin 50) (d : Fin 64) =>
            val_main_v20 (F := Ideal) x2 x4 (ix3 p k d) * x3 (ix2 p k) * x3 (ix2 p k) * x3 (ix2 p k)) d := by
  rw [val_main_v59_apply, v58_at, Ideal.addf_def]

theorem v69_at (p : Fin 4096) (j : Fin 64) :
    val_main_v69 (F := Ideal) x0 x2 x3 x4 x6 x7 (ix2 p j)
      = PooledLayers.lin (D := 64) x6 x7 2 (fun d => val_main_v59 (F := Ideal) x0 x2 x3 x4 x6 x7 (ix2 p d)) j := by
  rw [val_main_v69_apply, val_main_v68_apply, val_main_v63_apply, bias2, zero2, Ideal.maximumf_def, Ideal.addf_def]
  unfold PooledLayers.lin
  refine congrArg (max · 0) (congrArg (· + _) (Finset.sum_congr rfl fun k _ => ?_))
  rw [lidx63, ridx63, slab2]

/-! ## A row of the final state is the row function of the row's data -/

/-- Row p of the third round's output is the remasked row function of user p's row, p's neighbours and p's mask. -/
theorem row69 (p : Fin 4096) :
    (fun j : Fin 64 => val_main_v69 (F := Ideal) x0 x2 x3 x4 x6 x7 (ix2 p j))
      = PooledLayers.rowRemasked (D := 64) (K := 50) x6 x7 (fun d => val_main_v6 (F := Ideal) x0 x4 (ix2 p d))
          (fun k d => val_main_v20 (F := Ideal) x2 x4 (ix3 p k d)) (fun k => x3 (ix2 p k)) := by
  unfold PooledLayers.rowRemasked
  beta_reduce
  funext j
  rw [v69_at]
  refine congrFun (congrArg (PooledLayers.lin (D := 64) x6 x7 2) (funext fun d => ?_)) j
  rw [v59_at, v53_at]
  refine congrArg (· + _) (congrFun (congrArg (PooledLayers.lin (D := 64) x6 x7 1) (funext fun d => ?_)) d)
  rw [v43_at, v37_at]
  refine congrArg (· + _) (congrFun (congrArg (PooledLayers.lin (D := 64) x6 x7 0) (funext fun d => ?_)) d)
  rw [v27_at]

/-! ## The result -/

/-- Entry (p, q): the score of user p's final state against item q's row. -/
theorem result_at (p q : Fin 4096) :
    val_main_v71 (F := Ideal) x0 x1 x2 x3 x4 x5 x6 x7 (ix2 p q)
      = PooledLayers.dot (D := 64)
          (PooledLayers.rowRemasked (D := 64) (K := 50) x6 x7 (fun d => val_main_v6 (F := Ideal) x0 x4 (ix2 p d))
            (fun k d => val_main_v20 (F := Ideal) x2 x4 (ix3 p k d)) (fun k => x3 (ix2 p k)))
          (fun d => val_main_v13 (F := Ideal) x1 x5 (ix2 q d)) := by
  rw [← row69, val_main_v71_apply]
  unfold PooledLayers.dot
  refine Finset.sum_congr rfl fun k _ => ?_
  rw [lidx71, ridx71, val_main_v70_apply, idx70]

/-- The reference's result is the specification's result function of the three gathered arrays, the mask and the
    parameters. -/
theorem result_eq (x0 x1 : (⟨S4096, .i32⟩ : BufTy).Contents (Elt Ideal)) (x2 : (⟨S4096x50, .i32⟩ : BufTy).Contents (Elt Ideal))
    (x3 : (⟨S4096x50, .f32⟩ : BufTy).Contents (Elt Ideal)) (x4 x5 : (⟨S100000x64, .f32⟩ : BufTy).Contents (Elt Ideal))
    (x6 : (⟨S3x64x64, .f32⟩ : BufTy).Contents (Elt Ideal)) (x7 : (⟨S3x64, .f32⟩ : BufTy).Contents (Elt Ideal)) :
    Cert.ReferenceIdeal.Read.val_main_v71 (F := Ideal) x0 x1 x2 x3 x4 x5 x6 x7
      = PooledLayers.result (Cert.ReferenceIdeal.Read.val_main_v6 (F := Ideal) x0 x4)
          (Cert.ReferenceIdeal.Read.val_main_v13 (F := Ideal) x1 x5)
          (Cert.ReferenceIdeal.Read.val_main_v20 (F := Ideal) x2 x4) x3 x6 x7 := by
  funext i
  obtain ⟨p, q, rfl⟩ : ∃ (p : Fin 4096) (q : Fin 4096), i = ix2 p q := ⟨i 0, i 1, eq_ix2 i⟩
  rw [PooledLayers.result_apply]
  exact result_at x0 x1 x2 x3 x4 x5 x6 x7 p q

end Cert.ReferenceIdeal.RefValue

end
-- ==== Proof.Claims.lean ====
/-
  The five claims.

  Frames: the two kernel programs' frames are the generated ones; the reference has no kernel, and its frame is its
  generated run with the result dropped. Preserves: the idealized kernel names the float 0.02 as the real 1/50 at its
  three uses, one per round; each use is the named-constant rule's statement. Algebraic: at the ideal instance the
  kernel program's result array ends at the specification's result function of the host gathers of the arguments, of
  the mask and of the parameters (the run with its result kept, the two regions' arrays, the contents the first region
  finds, and the equality of the two arrangements of a row); the reference's result is the same function of its own
  arguments, which agree with the kernel's.
-/
import proofs.«125533_j87866440942280_2_alg».proof.Defs
import proofs.«125533_j87866440942280_2_alg».proof.Proof.Gen.Kernel.Frame
import proofs.«125533_j87866440942280_2_alg».proof.Proof.Gen.KernelIdeal.Frame
import proofs.«125533_j87866440942280_2_alg».proof.Proof.Gen.ReferenceIdeal.Run
import proofs.«125533_j87866440942280_2_alg».proof.Proof.Gen.ReferenceIdeal.Read
import proofs.«125533_j87866440942280_2_alg».proof.Proof.Gen.Pre_finite_inputs
import proofs.«125533_j87866440942280_2_alg».proof.Proof.KernelResult
import proofs.«125533_j87866440942280_2_alg».proof.Proof.ReferenceRows

set_option maxRecDepth 16384

noncomputable section

namespace Cert.Proof.Claims

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The float 0.02 named 1/50: the rule's statement, once per use. -/
theorem preserves : Cert.preserves_Kernel_KernelIdeal :=
  ⟨IdealRules.named_const.statement Cert.KernelIdeal.κ "inv_50" .f32 0x3CA3D70A#32 ((1 / 50 : ℝ) : EReal) rfl,
   IdealRules.named_const.statement Cert.KernelIdeal.κ "inv_50" .f32 0x3CA3D70A#32 ((1 / 50 : ℝ) : EReal) rfl,
   IdealRules.named_const.statement Cert.KernelIdeal.κ "inv_50" .f32 0x3CA3D70A#32 ((1 / 50 : ℝ) : EReal) rfl⟩

/-- Both programs end with the specification's result function of the gathered rows, given what the first kernel's
    body leaves in a tile. -/
theorem algebraic_of (htile : Cert.KernelIdeal.ConvArray.TileSpec) : Cert.algebraic_KernelIdeal_ReferenceIdeal := by
  intro m ρ m' ρ' _ hagree
  refine ⟨_, (θ_run Cert.KernelIdeal.defs _ _).mono
      (fun r h c => ⟨(h c).1.trans (Cert.KernelIdeal.ResultValue.result_array m ρ htile c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v71_eq, Cert.ReferenceIdeal.RefValue.result_eq, a0, a1, a2, a3, a4, a5, a6, a7]

end Cert.Proof.Claims

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«125533_j87866440942280_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibTreeOps.lean ====
/-
  A tile body of a child-sum tree recurrence, read at an entry, on the extended reals.

  A body that handles a tile of `n` nodes, each with `m` children of `K` numbers, meets the same few forms again and
  again:
    • a bias row `[1, c]` repeated down the tile's `n` rows (or, in a tile of one node, left as it is), or — through
      `[1, 1, c]` — over all `n × m` children;
    • an `[n, c]` matrix given a unit middle axis and repeated over the `m` children;
    • the sum over the `m` children (the middle axis of an `[n, m, c]` array);
    • a product of the tile (or of the children's sum) with a weight matrix, both operands first cast to a narrower
      float format — on the extended reals such a cast is the identity, and the matrix unit accumulating into zero is
      the textbook sum over the contracted axis;
    • the per-child product: the `[n, m, K]` children flattened to `[n·m, K]`, multiplied by a `[K, N]` matrix, and
      the result folded back to `[n, m, N]` — at `(r, k, p)` the sum over `j` of child `(r, k)`'s entry `j` times
      `W (j, p)`, because row `r·m + k` of the flattened array is child `k` of node `r`.
  Every extent is generic and every shape fact is a hypothesis. The last section reads a pointwise combination at an
  index from its operands at that index, so that a body's value at an entry is assembled term by term.
-/
import Idealize.ShloMosaic.PureOps.Ideal.Laws
import Idealize.ShloMosaic.Lib.ValueIdx
import Idealize.ShloMosaic.Lib.ValueLayout
import Idealize.ShloMosaic.Lib.Pipeline.Value
import proofs.«125533_j87866440942280_2_alg».proof.Proof.LibPlainDot

namespace Tree.Lib

open Idealize.ShloMosaic Idealize.ShloMosaic.ValueIdx

variable {n m c K N : ℕ}

/-! ## Bias rows and a matrix spread over the children -/

section Layout
variable {α : Type}

/-- A `[1, c]` row cast to its own shape and broadcast over `[n, c]` reads, at `(r, p)`, the row at `p`. -/
theorem biasRow_apply (v : (⟨2, ![1, c]⟩ : Shape).Idx → α) (h0 : (⟨2, ![1, c]⟩ : Shape).ShapeCasts ⟨2, ![1, c]⟩)
    (h1 : (⟨2, ![1, c]⟩ : Shape).Broadcasts ⟨2, ![n, c]⟩) (r : Fin n) (p : Fin c) :
    broadcastTo ⟨2, ![n, c]⟩ (shapeCast ⟨2, ![1, c]⟩ v h0) h1 (ix2 r p) = v (ix2 (0 : Fin 1) p) := by
  rw [shapeCast_self]
  exact broadcastTo_1b_ab_apply v h1 r p

/-- A `[1, c]` row cast to its own shape reads, at `(r, p)` — `r` the one row —, the row at `p`: what a bias row is
    in a tile of a single node, where no broadcast is printed. -/
theorem selfRow_apply (v : (⟨2, ![1, c]⟩ : Shape).Idx → α) (h0 : (⟨2, ![1, c]⟩ : Shape).ShapeCasts ⟨2, ![1, c]⟩)
    (r : Fin 1) (p : Fin c) : shapeCast ⟨2, ![1, c]⟩ v h0 (ix2 r p) = v (ix2 (0 : Fin 1) p) := by
  rw [shapeCast_self]
  exact congrArg (fun u => v (ix2 u p)) (Subsingleton.elim r 0)

/-- A `[1, 1, c]` array broadcast over `[n, m, c]` reads, at `(r, k, p)`, its one fibre at `p`. -/
theorem broadcastTo_11c_nmc_apply (v : (⟨3, ![1, 1, c]⟩ : Shape).Idx → α)
    (h : (⟨3, ![1, 1, c]⟩ : Shape).Broadcasts ⟨3, ![n, m, c]⟩) (r : Fin n) (k : Fin m) (p : Fin c) :
    broadcastTo ⟨3, ![n, m, c]⟩ v h (ix3 r k p) = v (ix3 (0 : Fin 1) (0 : Fin 1) p) := by
  refine broadcastTo_apply v h (ix3 r k p) (ix3 (0 : Fin 1) (0 : Fin 1) p) fun ax => ?_
  match ax with
  | ⟨0, _⟩ => rfl
  | ⟨1, _⟩ => rfl
  | ⟨2, _⟩ =>
    show p.val = if c = 1 then 0 else p.val
    split
    · have := p.isLt; omega
    · rfl

/-- A `[1, c]` row cast to its own shape, then to `[1, 1, c]`, and broadcast over `[n, m, c]` reads, at `(r, k, p)`,
    the row at `p`. -/
theorem biasRow3_apply (v : (⟨2, ![1, c]⟩ : Shape).Idx → α) (h0 : (⟨2, ![1, c]⟩ : Shape).ShapeCasts ⟨2, ![1, c]⟩)
    (h1 : (⟨2, ![1, c]⟩ : Shape).ShapeCasts ⟨3, ![1, 1, c]⟩) (h2 : (⟨3, ![1, 1, c]⟩ : Shape).Broadcasts ⟨3, ![n, m, c]⟩)
    (r : Fin n) (k : Fin m) (p : Fin c) :
    broadcastTo ⟨3, ![n, m, c]⟩ (shapeCast ⟨3, ![1, 1, c]⟩ (shapeCast ⟨2, ![1, c]⟩ v h0) h1) h2 (ix3 r k p)
      = v (ix2 (0 : Fin 1) p) := by
  rw [shapeCast_self]
  exact (broadcastTo_11c_nmc_apply _ h2 r k p).trans (shapeCast_ab_1ab_apply v h1 0 0 p)

/-- An `[n, c]` matrix cast to `[n, 1, c]` reads, at `(r, u, p)`, the matrix at `(r, p)`. -/
theorem shapeCast_nc_n1c_apply (v : (⟨2, ![n, c]⟩ : Shape).Idx → α) (h : (⟨2, ![n, c]⟩ : Shape).ShapeCasts ⟨3, ![n, 1, c]⟩)
    (r : Fin n) (u : Fin 1) (p : Fin c) : shapeCast ⟨3, ![n, 1, c]⟩ v h (ix3 r u p) = v (ix2 r p) :=
  shapeCast_apply v h _ _ (by
    have hu : u.val = 0 := by omega
    rw [Shape.rowMajor_val_three, Shape.rowMajor_val_two]
    show r.val * c + p.val = (r.val * 1 + u.val) * c + p.val
    rw [hu, Nat.mul_one, Nat.add_zero])

/-- An `[n, 1, c]` array broadcast along its middle axis over `[n, m, c]` reads, at `(r, k, p)`, the operand at
    `(r, 0, p)`. -/
theorem broadcastTo_n1c_nmc_apply (v : (⟨3, ![n, 1, c]⟩ : Shape).Idx → α)
    (h : (⟨3, ![n, 1, c]⟩ : Shape).Broadcasts ⟨3, ![n, m, c]⟩) (r : Fin n) (k : Fin m) (p : Fin c) :
    broadcastTo ⟨3, ![n, m, c]⟩ v h (ix3 r k p) = v (ix3 r (0 : Fin 1) p) := by
  refine broadcastTo_apply v h (ix3 r k p) (ix3 r (0 : Fin 1) p) fun ax => ?_
  match ax with
  | ⟨0, _⟩ =>
    show r.val = if n = 1 then 0 else r.val
    split
    · have := r.isLt; omega
    · rfl
  | ⟨1, _⟩ => rfl
  | ⟨2, _⟩ =>
    show p.val = if c = 1 then 0 else p.val
    split
    · have := p.isLt; omega
    · rfl

/-- An `[n, c]` matrix given a unit middle axis and repeated over the `m` children reads, at `(r, k, p)`, the matrix
    at `(r, p)`. -/
theorem spreadMiddle_apply (v : (⟨2, ![n, c]⟩ : Shape).Idx → α) (h1 : (⟨2, ![n, c]⟩ : Shape).ShapeCasts ⟨3, ![n, 1, c]⟩)
    (h2 : (⟨3, ![n, 1, c]⟩ : Shape).Broadcasts ⟨3, ![n, m, c]⟩) (r : Fin n) (k : Fin m) (p : Fin c) :
    broadcastTo ⟨3, ![n, m, c]⟩ (shapeCast ⟨3, ![n, 1, c]⟩ v h1) h2 (ix3 r k p) = v (ix2 r p) :=
  (broadcastTo_n1c_nmc_apply _ h2 r k p).trans (shapeCast_nc_n1c_apply v h1 r 0 p)

end Layout

/-! ## The sum over the children -/

/-- Over the middle axis of an `[n, m, c]` array: `(r, p)` with the middle coordinate `k` put back is `(r, k, p)`. -/
theorem lift_middle (h : Shape.Reduces ⟨3, ![n, m, c]⟩ [1] ⟨2, ![n, c]⟩) (r : Fin n) (p : Fin c) (k : Fin m) :
    h.lift (ix2 r p) k = ix3 r k p := by
  funext d
  apply Fin.ext
  match d with
  | ⟨0, _⟩ => rfl
  | ⟨1, _⟩ => rfl
  | ⟨2, _⟩ => rfl

/-- A `multi_reduction <add>` along the middle axis of an `[n, m, c]` array, at `(r, p)`: the sum over the `m`
    middle coordinates. -/
theorem sumMiddle_apply (v : FVec Ideal ⟨3, ![n, m, c]⟩ .f32) (h : Shape.Reduces ⟨3, ![n, m, c]⟩ [1] ⟨2, ![n, c]⟩)
    (hφ : FKind.Formats .f32) (hacc : (0x00000000#32 : BitVec 32) = FKind.add.neutral .f32 hφ) (r : Fin n) (p : Fin c) :
    multiReduction .add [1] ⟨2, ![n, c]⟩ v 0x00000000#32 h hφ hacc (ix2 r p) = ∑ k : Fin m, v (ix3 r k p) := by
  refine (Ideal.multiReduction_add_single v 0x00000000#32 h hφ hacc (ix2 r p)).trans ?_
  exact Finset.sum_congr rfl fun k _ => congrArg v (lift_middle h r p k)

/-! ## Products with a weight matrix -/

/-- The tile, cast to its own shape and then to a narrower format, against a weight matrix cast to that format, into
    the zero accumulator: at `(r, p)` the sum over the contracted axis of the tile's row `r` against column `p`. -/
theorem xW_apply {ψ : FTy} (x : FVec Ideal ⟨2, ![n, K]⟩ .f32) (W : FVec Ideal ⟨2, ![K, N]⟩ .f32)
    (hs : (⟨2, ![n, K]⟩ : Shape).ShapeCasts ⟨2, ![n, K]⟩) (hb : ψ.bits < FTy.bits .f32)
    (prec : Option ContractPrecision) (r : Fin n) (p : Fin N) :
    FloatOps.matmul (DotDims.plain n K N) prec (truncf ψ (shapeCast ⟨2, ![n, K]⟩ x hs) hb) (truncf ψ W hb)
        (constant ⟨2, ![n, N]⟩ .f32 0x00000000#32) (ix2 r p)
      = ∑ k : Fin K, x (ix2 r k) * W (ix2 k p) := by
  rw [shapeCast_self]
  exact Gcn.Lib.plain_matmul_zero_apply (truncf ψ x hb) (truncf ψ W hb) prec r p

/-- The children's sum (the children cast to their own shape, summed over the middle axis, cast to a narrower format)
    against a weight matrix: at `(r, p)` the sum over `j` of (the sum over the children of entry `j`) times `W (j, p)`. -/
theorem hsumW_apply {ψ : FTy} (ch : FVec Ideal ⟨3, ![n, m, K]⟩ .f32) (W : FVec Ideal ⟨2, ![K, N]⟩ .f32)
    (hs : (⟨3, ![n, m, K]⟩ : Shape).ShapeCasts ⟨3, ![n, m, K]⟩) (h : Shape.Reduces ⟨3, ![n, m, K]⟩ [1] ⟨2, ![n, K]⟩)
    (hφ : FKind.Formats .f32) (hacc : (0x00000000#32 : BitVec 32) = FKind.add.neutral .f32 hφ)
    (hb : ψ.bits < FTy.bits .f32) (prec : Option ContractPrecision) (r : Fin n) (p : Fin N) :
    FloatOps.matmul (DotDims.plain n K N) prec
        (truncf ψ (multiReduction .add [1] ⟨2, ![n, K]⟩ (shapeCast ⟨3, ![n, m, K]⟩ ch hs) 0x00000000#32 h hφ hacc) hb)
        (truncf ψ W hb) (constant ⟨2, ![n, N]⟩ .f32 0x00000000#32) (ix2 r p)
      = ∑ j : Fin K, (∑ k : Fin m, ch (ix3 r k j)) * W (ix2 j p) := by
  rw [shapeCast_self]
  refine (Gcn.Lib.plain_matmul_zero_apply _ _ prec r p).trans (Finset.sum_congr rfl fun j _ => ?_)
  exact congrArg (· * W (ix2 j p)) (sumMiddle_apply ch h hφ hacc r j)

/-- Row `r·m + k` of the flattened children is child `k` of node `r`. -/
theorem flat_lt (r : Fin n) (k : Fin m) : r.val * m + k.val < n * m := by
  have h1 : (r.val + 1) * m ≤ n * m := Nat.mul_le_mul_right m r.isLt
  have h2 : (r.val + 1) * m = r.val * m + m := Nat.succ_mul _ _
  have := k.isLt
  omega

/-- The per-child product: the `[n, m, K]` children flattened to `[M, K]`, `M = n·m`, cast to a narrower format,
    multiplied by the weight matrix into the zero accumulator, and folded back to `[n, m, N]`: at `(r, k, p)` the sum
    over `j` of child `(r, k)`'s entry `j` times `W (j, p)`. -/
theorem childW_apply {ψ : FTy} (M : ℕ) (hM : M = n * m) (ch : FVec Ideal ⟨3, ![n, m, K]⟩ .f32)
    (W : FVec Ideal ⟨2, ![K, N]⟩ .f32) (hs : (⟨3, ![n, m, K]⟩ : Shape).ShapeCasts ⟨3, ![n, m, K]⟩)
    (h1 : (⟨3, ![n, m, K]⟩ : Shape).ShapeCasts ⟨2, ![M, K]⟩) (h2 : (⟨2, ![M, N]⟩ : Shape).ShapeCasts ⟨3, ![n, m, N]⟩)
    (hb : ψ.bits < FTy.bits .f32) (prec : Option ContractPrecision) (r : Fin n) (k : Fin m) (p : Fin N) :
    shapeCast ⟨3, ![n, m, N]⟩
        (FloatOps.matmul (DotDims.plain M K N) prec
          (truncf ψ (shapeCast ⟨2, ![M, K]⟩ (shapeCast ⟨3, ![n, m, K]⟩ ch hs) h1) hb) (truncf ψ W hb)
          (constant ⟨2, ![M, N]⟩ .f32 0x00000000#32)) h2 (ix3 r k p)
      = ∑ j : Fin K, ch (ix3 r k j) * W (ix2 j p) := by
  subst hM
  rw [shapeCast_self]
  refine (shapeCast_apply _ h2 (ix3 r k p) (ix2 ⟨r.val * m + k.val, flat_lt r k⟩ p) ?_).trans ?_
  · rw [Shape.rowMajor_val_two, Shape.rowMajor_val_three]
    rfl
  refine (Gcn.Lib.plain_matmul_zero_apply _ _ prec _ p).trans (Finset.sum_congr rfl fun j _ => ?_)
  refine congrArg (· * W (ix2 j p)) ?_
  exact shapeCast_apply ch h1 (ix2 ⟨r.val * m + k.val, flat_lt r k⟩ j) (ix3 r k j) (by
    rw [Shape.rowMajor_val_two, Shape.rowMajor_val_three]
    rfl)

/-! ## A pointwise combination at an index, from its operands at that index -/

section Pointwise
variable {s : Shape} {φ : FTy}

/-- A sum at an index, from the summands there. -/
theorem addf_at {a b : FVec Ideal s φ} {i : s.Idx} {x y : EReal} (ha : a i = x) (hb : b i = y) :
    addf a b i = x + y := congrArg₂ (· + ·) ha hb

/-- A product at an index, from the factors there. -/
theorem mulf_at {a b : FVec Ideal s φ} {i : s.Idx} {x y : EReal} (ha : a i = x) (hb : b i = y) :
    mulf a b i = x * y := congrArg₂ (· * ·) ha hb

/-- The logistic function at an index, from its argument there. -/
theorem logistic_at {a : FVec Ideal s φ} {i : s.Idx} {x : EReal} (ha : a i = x) :
    logistic a i = Ideal.logistic x := congrArg Ideal.logistic ha

/-- The hyperbolic tangent at an index, from its argument there. -/
theorem tanh_at {a : FVec Ideal s φ} {i : s.Idx} {x : EReal} (ha : a i = x) :
    tanh a i = Ideal.tanh x := congrArg Ideal.tanh ha

end Pointwise

end Tree.Lib
-- ==== Proof.ConvTileOps.lean ====
/-
  The operations of a pooling tile body, read at an entry, on the extended reals.

  The body works on a tile of 256 rows. Each row has 50 neighbours of 64 numbers and 50 mask values, taken
  ten neighbours at a time: group `c` is the neighbours `10 c, …, 10 c + 9`. Three things recur:
    • a group's block of features or of mask values, loaded through its rectangle, reads the whole block at the
      neighbour `10 c + kk`; a row `l` of the stacked biases reads the stack at `(l, j)`;
    • a per-neighbour weight `[256, 10]`, given a unit last axis and repeated along it, multiplies the block of
      features, and the products are summed over the ten neighbours: at `(p, d)` the sum over `kk` of the feature
      `(p, kk, d)` times the weight `(p, kk)`;
    • a state tile against a `[1, 64, 64]` slab of weights (both narrowed to a shorter float format, which is the
      identity on the extended reals; the product contracts the LAST axis of both operands), plus a bias row repeated
      down the rows, and the positive part: at `(p, j)` the maximum of `∑ d, state (p, d) · W (0, j, d) + b (0, j)` and
      zero.
  The named reciprocal of fifty is the real 1/50, and the zero word is zero.
-/
import proofs.«125533_j87866440942280_2_alg».proof.Proof.Gen.KernelIdeal.Frame
import proofs.«125533_j87866440942280_2_alg».proof.Proof.PooledLayers
import proofs.«125533_j87866440942280_2_alg».proof.Proof.LibTileOps
import proofs.«125533_j87866440942280_2_alg».proof.Proof.LibTreeOps
import proofs.«125533_j87866440942280_2_alg».proof.Proof.LibTransposedRecord
import Idealize.ShloMosaic.PureOps.IdealRules

noncomputable section

open scoped BigOperators

namespace Cert.KernelIdeal.TileValue

open Idealize.ShloMosaic Idealize.ShloMosaic.ValueIdx Cert.KernelIdeal Cert.KernelIdeal.Gen

/-! ## The two constants -/

/-- The named reciprocal denotes the real 1/50. -/
theorem inv_50 : Named.named (F := Ideal) Cert.KernelIdeal.κ "inv_50" (φ := .f32) 0x3CA3D70A#32 = ((1 / 50 : ℝ) : EReal) :=
  IdealRules.named_const.ideal_named_scalar _ _ _ _ rfl

/-- The zero word denotes zero. -/
theorem zero_word : (Scalar.ofBits (F := Ideal) .f32 0x00000000#32 : Ideal .f32) = (0 : EReal) :=
  Ideal.ofBits_zero_f32

/-! ## Loads of a group's block and of a bias row -/

section Loads
variable {Val : EltTy → Type} {e : EltTy}

/-- Group `c`'s block of features: the rectangle of extents `[256, 10, 64]` at the offsets `[0, o, 0]`, `o = 10 c`,
    reads at `(p, kk, d)` the whole block at `(p, 10 c + kk, d)`. -/
theorem ld_group3 (x : S256x50x64.Idx → Val e) (o : ℕ) (c : Fin 5) (hc : c.val * 10 = o)
    (inb : ∀ ax, (![0, o, 0] : Fin 3 → ℕ) ax + S256x10x64.size ax ≤ S256x50x64.size ax)
    (p : Fin 256) (kk : Fin 10) (d : Fin 64) :
    View.ld (Val := Val) x (Rect.unit (s := S256x50x64) ![0, o, 0] S256x10x64.size inb) (ix3 p kk d)
      = x (ix3 p (PooledLayers.chunk c kk) d) := by
  show x ((Rect.unit (s := S256x50x64) ![0, o, 0] S256x10x64.size inb).idx (ix3 p kk d)) = _
  refine congrArg x (funext fun ax => Fin.ext ?_)
  match ax with
  | ⟨0, _⟩ => show 0 + 1 * p.val = p.val; omega
  | ⟨1, _⟩ => show o + 1 * kk.val = c.val * 10 + kk.val; omega
  | ⟨2, _⟩ => show 0 + 1 * d.val = d.val; omega

/-- Group `c`'s block of mask values: the rectangle of extents `[256, 10]` at the offsets `[0, o]`, `o = 10 c`, reads at
    `(p, kk)` the whole block at `(p, 10 c + kk)`. -/
theorem ld_group2 (x : S256x50.Idx → Val e) (o : ℕ) (c : Fin 5) (hc : c.val * 10 = o)
    (inb : ∀ ax, (![0, o] : Fin 2 → ℕ) ax + S256x10.size ax ≤ S256x50.size ax)
    (p : Fin 256) (kk : Fin 10) :
    View.ld (Val := Val) x (Rect.unit (s := S256x50) ![0, o] S256x10.size inb) (ix2 p kk)
      = x (ix2 p (PooledLayers.chunk c kk)) := by
  show x ((Rect.unit (s := S256x50) ![0, o] S256x10.size inb).idx (ix2 p kk)) = _
  refine congrArg x (funext fun ax => Fin.ext ?_)
  match ax with
  | ⟨0, _⟩ => show 0 + 1 * p.val = p.val; omega
  | ⟨1, _⟩ => show o + 1 * kk.val = c.val * 10 + kk.val; omega

/-- Row `l` of the stacked biases: the rectangle of extents `[1, 64]` at the offsets `[o, 0]`, `o = l`, reads at `(0, j)`
    the stack at `(l, j)`. -/
theorem ld_row (x : S3x64.Idx → Val e) (o : ℕ) (l : Fin 3) (hl : l.val = o)
    (inb : ∀ ax, (![o, 0] : Fin 2 → ℕ) ax + S1x64.size ax ≤ S3x64.size ax) (j : Fin 64) :
    View.ld (Val := Val) x (Rect.unit (s := S3x64) ![o, 0] S1x64.size inb) (ix2 (0 : Fin 1) j) = x (ix2 l j) := by
  show x ((Rect.unit (s := S3x64) ![o, 0] S1x64.size inb).idx (ix2 (0 : Fin 1) j)) = _
  refine congrArg x (funext fun ax => Fin.ext ?_)
  match ax with
  | ⟨0, _⟩ => show o + 1 * 0 = l.val; omega
  | ⟨1, _⟩ => show 0 + 1 * j.val = j.val; omega

end Loads

/-! ## A per-neighbour weight spread along the features, and the weighted sum over a group -/

/-- An `[n, m]` array given a unit last axis reads, at `(r, k, u)`, the array at `(r, k)`. -/
theorem shapeCast_nm_nm1_apply {α : Type} {n m : ℕ} (v : (⟨2, ![n, m]⟩ : Shape).Idx → α)
    (h : (⟨2, ![n, m]⟩ : Shape).ShapeCasts ⟨3, ![n, m, 1]⟩) (r : Fin n) (k : Fin m) (u : Fin 1) :
    shapeCast ⟨3, ![n, m, 1]⟩ v h (ix3 r k u) = v (ix2 r k) :=
  shapeCast_apply v h _ _ (by
    have hu : u.val = 0 := by omega
    rw [Shape.rowMajor_val_three, Shape.rowMajor_val_two]
    show r.val * m + k.val = (r.val * m + k.val) * 1 + u.val
    rw [hu, Nat.mul_one, Nat.add_zero])

/-- An `[n, m, 1]` array repeated along its last axis over `[n, m, c]` reads, at `(r, k, p)`, the operand at
    `(r, k, 0)`. -/
theorem broadcastTo_nm1_nmc_apply {α : Type} {n m c : ℕ} (v : (⟨3, ![n, m, 1]⟩ : Shape).Idx → α)
    (h : (⟨3, ![n, m, 1]⟩ : Shape).Broadcasts ⟨3, ![n, m, c]⟩) (r : Fin n) (k : Fin m) (p : Fin c) :
    broadcastTo ⟨3, ![n, m, c]⟩ v h (ix3 r k p) = v (ix3 r k (0 : Fin 1)) := by
  refine broadcastTo_apply v h (ix3 r k p) (ix3 r k (0 : Fin 1)) fun ax => ?_
  match ax with
  | ⟨0, _⟩ =>
    show r.val = if n = 1 then 0 else r.val
    split
    · have := r.isLt; omega
    · rfl
  | ⟨1, _⟩ =>
    show k.val = if m = 1 then 0 else k.val
    split
    · have := k.isLt; omega
    · rfl
  | ⟨2, _⟩ => rfl

/-- A per-neighbour weight spread along the features reads, at `(r, k, p)`, the weight at `(r, k)`. -/
theorem spreadLast_apply {α : Type} {n m c : ℕ} (v : (⟨2, ![n, m]⟩ : Shape).Idx → α)
    (h1 : (⟨2, ![n, m]⟩ : Shape).ShapeCasts ⟨3, ![n, m, 1]⟩)
    (h2 : (⟨3, ![n, m, 1]⟩ : Shape).Broadcasts ⟨3, ![n, m, c]⟩) (r : Fin n) (k : Fin m) (p : Fin c) :
    broadcastTo ⟨3, ![n, m, c]⟩ (shapeCast ⟨3, ![n, m, 1]⟩ v h1) h2 (ix3 r k p) = v (ix2 r k) :=
  (broadcastTo_nm1_nmc_apply _ h2 r k p).trans (shapeCast_nm_nm1_apply v h1 r k 0)

/-- The weighted sum over a group: the features times the spread weight, summed over the ten neighbours from the zero
    accumulator, at `(p, d)`. -/
theorem groupSum_apply (f : FVec Ideal S256x10x64 .f32) (w : FVec Ideal S256x10 .f32)
    (hacc : (0x00000000#32 : BitVec 32) = 0x00000000#32) (p : Fin 256) (d : Fin 64) :
    multiReduction .add [1] S256x64
        (mulf f (broadcastTo S256x10x64 (shapeCast S256x10x1 w shapeCasts_S256x10_S256x10x1) broadcasts_S256x10x1_S256x10x64))
        0x00000000#32 reduces_S256x10x64_S256x64 (.inl rfl) hacc (ix2 p d)
      = ∑ kk : Fin 10, f (ix3 p kk d) * w (ix2 p kk) := by
  refine (Tree.Lib.sumMiddle_apply _ reduces_S256x10x64_S256x64 (.inl rfl) hacc p d).trans ?_
  refine Finset.sum_congr rfl fun kk _ => ?_
  exact congrArg (f (ix3 p kk d) * ·)
    (spreadLast_apply w shapeCasts_S256x10_S256x10x1 broadcasts_S256x10x1_S256x10x64 p kk d)

/-! ## One round's map of the state tile -/

/-- The state tile against a slab of weights, plus the bias row, positive part: at `(p, j)`. -/
theorem layer_apply (st : FVec Ideal S256x64 .f32) (W : Vec Ideal S1x64x64 .f32) (b : Vec Ideal S1x64 .f32)
    (p : Fin 256) (j : Fin 64) :
    maximumf
        (addf
          (matmul dot_S256x64_S64x64_S256x64_1_1_0_0_n_n none (truncf .bf16 st bitsLt_bf16_f32)
            (truncf .bf16 (shapeCast S64x64 W shapeCasts_S1x64x64_S64x64) bitsLt_bf16_f32) (constant S256x64 .f32 0x00000000#32))
          (broadcastTo S256x64 (shapeCast S1x64 (shapeCast S64 b shapeCasts_S1x64_S64) shapeCasts_S64_S1x64)
            broadcasts_S1x64_S256x64))
        (broadcast S256x64 (Scalar.ofBits .f32 0x00000000#32)) (ix2 p j)
      = max ((∑ d : Fin 64, st (ix2 p d) * W (ix3 (0 : Fin 1) j d)) + b (ix2 (0 : Fin 1) j)) 0 := by
  show max (_ + _) (Scalar.ofBits (F := Ideal) .f32 0x00000000#32) = _
  rw [zero_word]
  refine congrArg (max · (0 : EReal)) (congrArg₂ (· + ·) ?_ ?_)
  · refine (TransposedRecord.matmul_zero_apply dot_S256x64_S64x64_S256x64_1_1_0_0_n_n rfl rfl rfl rfl rfl rfl _ _ none p j).trans ?_
    refine Finset.sum_congr rfl fun d _ => ?_
    exact congrArg (st (ix2 p d) * ·) (shapeCast_1ab_ab_apply W shapeCasts_S1x64x64_S64x64 j d)
  · exact (Hmu.Lib.rowVec_apply _ shapeCasts_S64_S1x64 broadcasts_S1x64_S256x64 p j).trans
      (shapeCast_1a_a_apply b shapeCasts_S1x64_S64 j)

end Cert.KernelIdeal.TileValue

end
-- ==== Proof.ConvTilePayloads.lean ====
/-
  The tile body's arithmetic, payload by payload, read at an entry.

  The body accumulates, group after group of ten neighbours, three weighted sums of the features: weighted by the
  mask, by its square and by its cube. Each payload adds the sums of one or two further groups to what it is handed;
  the last two payloads add to the state the accumulated sum times 1/50 and map the state through a round (the state
  against the round's weight slab, plus the bias row, positive part). Every lemma reads one payload at `(p, d)` over
  VARIABLE operands.
-/
import proofs.«125533_j87866440942280_2_alg».proof.Proof.ConvTileOps

noncomputable section

open scoped BigOperators

namespace Cert.KernelIdeal.TileValue

open Idealize.ShloMosaic Idealize.ShloMosaic.ValueIdx Cert.KernelIdeal Cert.KernelIdeal.Gen
open PooledLayers (fiftieth)

/-! ## Casts of a block to its own shape, and the mask's square -/

theorem pay2_eq (v : Vec Ideal S256x64 .f32) : k0_pay2 (F := Ideal) v = v := by
  unfold k0_pay2; exact shapeCast_self _ _
theorem pay3_eq (v : Vec Ideal S256x10x64 .f32) : k0_pay3 (F := Ideal) v = v := by
  unfold k0_pay3; exact shapeCast_self _ _
theorem pay6_eq (v : Vec Ideal S256x10x64 .f32) : k0_pay6 (F := Ideal) v = v := by
  unfold k0_pay6; exact shapeCast_self _ _
theorem pay10_eq (v : Vec Ideal S256x10x64 .f32) : k0_pay10 (F := Ideal) v = v := by
  unfold k0_pay10; exact shapeCast_self _ _
theorem pay13_eq (v : Vec Ideal S256x10x64 .f32) : k0_pay13 (F := Ideal) v = v := by
  unfold k0_pay13; exact shapeCast_self _ _
theorem pay18_eq (v : Vec Ideal S256x10x64 .f32) : k0_pay18 (F := Ideal) v = v := by
  unfold k0_pay18; exact shapeCast_self _ _

theorem pay4_eq (v : Vec Ideal S256x10 .f32) : k0_pay4 (F := Ideal) v = mulf v v := rfl
theorem pay8_eq (v : Vec Ideal S256x10 .f32) : k0_pay8 (F := Ideal) v = mulf v v := rfl
theorem pay11_eq (v : Vec Ideal S256x10 .f32) : k0_pay11 (F := Ideal) v = mulf v v := rfl
theorem pay15_eq (v : Vec Ideal S256x10 .f32) : k0_pay15 (F := Ideal) v = mulf v v := rfl
theorem pay19_eq (v : Vec Ideal S256x10 .f32) : k0_pay19 (F := Ideal) v = mulf v v := rfl

/-! ## The first two groups -/

/-- The cube-weighted sum after group 0. -/
theorem pay5_apply (v5 : Vec Ideal S256x10x64 .f32) (v7 : Vec Ideal S256x10 .f32) (p : Fin 256) (d : Fin 64) :
    k0_pay5 (F := Ideal) v5 v7 (ix2 p d)
      = 0 + ∑ kk : Fin 10, v5 (ix3 p kk d) * (v7 (ix2 p kk) * v7 (ix2 p kk) * v7 (ix2 p kk)) := by
  unfold k0_pay5
  rw [pay3_eq, pay4_eq]
  exact Tree.Lib.addf_at zero_word (groupSum_apply v5 (mulf (mulf v7 v7) v7) rfl p d)

/-- The mask-weighted sum after groups 0 and 1. -/
theorem pay7_apply (v5 : Vec Ideal S256x10x64 .f32) (v7 : Vec Ideal S256x10 .f32) (v25 : Vec Ideal S256x10x64 .f32)
    (v27 : Vec Ideal S256x10 .f32) (p : Fin 256) (d : Fin 64) :
    k0_pay7 (F := Ideal) v5 v7 v25 v27 (ix2 p d)
      = 0 + (∑ kk : Fin 10, v5 (ix3 p kk d) * v7 (ix2 p kk)) + ∑ kk : Fin 10, v25 (ix3 p kk d) * v27 (ix2 p kk) := by
  unfold k0_pay7
  rw [pay3_eq, pay6_eq]
  exact Tree.Lib.addf_at (Tree.Lib.addf_at zero_word (groupSum_apply v5 v7 rfl p d)) (groupSum_apply v25 v27 rfl p d)

/-- The square-weighted sum after groups 0 and 1. -/
theorem pay9_apply (v5 : Vec Ideal S256x10x64 .f32) (v7 : Vec Ideal S256x10 .f32) (v25 : Vec Ideal S256x10x64 .f32)
    (v27 : Vec Ideal S256x10 .f32) (p : Fin 256) (d : Fin 64) :
    k0_pay9 (F := Ideal) v5 v7 v25 v27 (ix2 p d)
      = 0 + (∑ kk : Fin 10, v5 (ix3 p kk d) * (v7 (ix2 p kk) * v7 (ix2 p kk)))
          + ∑ kk : Fin 10, v25 (ix3 p kk d) * (v27 (ix2 p kk) * v27 (ix2 p kk)) := by
  unfold k0_pay9
  rw [pay3_eq, pay6_eq, pay4_eq, pay8_eq]
  exact Tree.Lib.addf_at (Tree.Lib.addf_at zero_word (groupSum_apply v5 (mulf v7 v7) rfl p d))
    (groupSum_apply v25 (mulf v27 v27) rfl p d)

/-! ## Groups 1 to 3 -/

/-- The cube-weighted sum: groups 1 and 2 added to what came before. -/
theorem pay12_apply (v24 : FVec Ideal S256x64 .f32) (v26 : FVec Ideal S256x10x64 .f32) (v27 : Vec Ideal S256x10 .f32)
    (v33 : FVec Ideal S256x10 .f32) (v45 : Vec Ideal S256x10x64 .f32) (v47 : Vec Ideal S256x10 .f32)
    (p : Fin 256) (d : Fin 64) :
    k0_pay12 (F := Ideal) v24 v26 v27 v33 v45 v47 (ix2 p d)
      = v24 (ix2 p d) + (∑ kk : Fin 10, v26 (ix3 p kk d) * (v33 (ix2 p kk) * v27 (ix2 p kk)))
          + ∑ kk : Fin 10, v45 (ix3 p kk d) * (v47 (ix2 p kk) * v47 (ix2 p kk) * v47 (ix2 p kk)) := by
  unfold k0_pay12
  rw [pay10_eq, pay11_eq]
  exact Tree.Lib.addf_at (Tree.Lib.addf_at rfl (groupSum_apply v26 (mulf v33 v27) rfl p d))
    (groupSum_apply v45 (mulf (mulf v47 v47) v47) rfl p d)

/-- The mask-weighted sum: groups 2 and 3 added to what came before. -/
theorem pay14_apply (v32 : FVec Ideal S256x64 .f32) (v45 : Vec Ideal S256x10x64 .f32) (v47 : Vec Ideal S256x10 .f32)
    (v65 : Vec Ideal S256x10x64 .f32) (v67 : Vec Ideal S256x10 .f32) (p : Fin 256) (d : Fin 64) :
    k0_pay14 (F := Ideal) v32 v45 v47 v65 v67 (ix2 p d)
      = v32 (ix2 p d) + (∑ kk : Fin 10, v45 (ix3 p kk d) * v47 (ix2 p kk))
          + ∑ kk : Fin 10, v65 (ix3 p kk d) * v67 (ix2 p kk) := by
  unfold k0_pay14
  rw [pay10_eq, pay13_eq]
  exact Tree.Lib.addf_at (Tree.Lib.addf_at rfl (groupSum_apply v45 v47 rfl p d)) (groupSum_apply v65 v67 rfl p d)

/-- The square-weighted sum: groups 2 and 3 added to what came before. -/
theorem pay16_apply (v38 : FVec Ideal S256x64 .f32) (v45 : Vec Ideal S256x10x64 .f32) (v47 : Vec Ideal S256x10 .f32)
    (v65 : Vec Ideal S256x10x64 .f32) (v67 : Vec Ideal S256x10 .f32) (p : Fin 256) (d : Fin 64) :
    k0_pay16 (F := Ideal) v38 v45 v47 v65 v67 (ix2 p d)
      = v38 (ix2 p d) + (∑ kk : Fin 10, v45 (ix3 p kk d) * (v47 (ix2 p kk) * v47 (ix2 p kk)))
          + ∑ kk : Fin 10, v65 (ix3 p kk d) * (v67 (ix2 p kk) * v67 (ix2 p kk)) := by
  unfold k0_pay16
  rw [pay10_eq, pay13_eq, pay11_eq, pay15_eq]
  exact Tree.Lib.addf_at (Tree.Lib.addf_at rfl (groupSum_apply v45 (mulf v47 v47) rfl p d))
    (groupSum_apply v65 (mulf v67 v67) rfl p d)

/-- Group 3's cube-weighted products, before their sum. -/
theorem pay17_apply (v65 : Vec Ideal S256x10x64 .f32) (v67 : Vec Ideal S256x10 .f32) (p : Fin 256) (kk : Fin 10)
    (d : Fin 64) :
    k0_pay17 (F := Ideal) v65 v67 (ix3 p kk d)
      = v65 (ix3 p kk d) * (v67 (ix2 p kk) * v67 (ix2 p kk) * v67 (ix2 p kk)) := by
  unfold k0_pay17
  rw [pay13_eq, pay15_eq]
  exact Tree.Lib.mulf_at rfl
    (spreadLast_apply (mulf (mulf v67 v67) v67 : FVec Ideal S256x10 .f32) shapeCasts_S256x10_S256x10x1
      broadcasts_S256x10x1_S256x10x64 p kk d)

/-! ## The last group, and the rounds -/

/-- The cube-weighted sum: group 3's products summed, and group 4, added to what came before. -/
theorem pay20_apply (v64 : FVec Ideal S256x64 .f32) (v82 : FVec Ideal S256x10x64 .f32) (v85 : Vec Ideal S256x10x64 .f32)
    (v87 : Vec Ideal S256x10 .f32) (p : Fin 256) (d : Fin 64) :
    k0_pay20 (F := Ideal) v64 v82 v85 v87 (ix2 p d)
      = v64 (ix2 p d) + (∑ kk : Fin 10, v82 (ix3 p kk d))
          + ∑ kk : Fin 10, v85 (ix3 p kk d) * (v87 (ix2 p kk) * v87 (ix2 p kk) * v87 (ix2 p kk)) := by
  unfold k0_pay20
  rw [pay18_eq, pay19_eq]
  exact Tree.Lib.addf_at
    (Tree.Lib.addf_at rfl (Tree.Lib.sumMiddle_apply v82 reduces_S256x10x64_S256x64 (.inl rfl) rfl p d))
    (groupSum_apply v85 (mulf (mulf v87 v87) v87) rfl p d)

/-- Rounds 0 and 1 up to the second state: group 4 closes the mask- and the square-weighted sums; the first state is
    the row plus the mask-weighted sum over fifty, mapped through round 0; the second adds the square-weighted sum
    over fifty. -/
theorem pay21_apply (v1 : FVec Ideal S256x64 .f32) (v72 : FVec Ideal S256x64 .f32) (v78 : FVec Ideal S256x64 .f32)
    (v85 : Vec Ideal S256x10x64 .f32) (v87 : Vec Ideal S256x10 .f32) (v108 : Vec Ideal S1x64x64 .f32)
    (v110 : Vec Ideal S1x64 .f32) (p : Fin 256) (j : Fin 64) :
    k0_pay21 (F := Ideal) v1 v72 v78 v85 v87 v108 v110 (ix2 p j)
      = max ((∑ d : Fin 64,
                (v1 (ix2 p d) + (v72 (ix2 p d) + ∑ kk : Fin 10, v85 (ix3 p kk d) * v87 (ix2 p kk)) * fiftieth)
                  * v108 (ix3 (0 : Fin 1) j d)) + v110 (ix2 (0 : Fin 1) j)) 0
          + (v78 (ix2 p j) + ∑ kk : Fin 10, v85 (ix3 p kk j) * (v87 (ix2 p kk) * v87 (ix2 p kk))) * fiftieth := by
  unfold k0_pay21
  rw [pay18_eq, pay19_eq]
  refine Tree.Lib.addf_at ?_ ?_
  · refine (layer_apply _ v108 v110 p j).trans ?_
    refine congrArg (max · (0 : EReal)) (congrArg (· + v110 (ix2 (0 : Fin 1) j)) ?_)
    refine Finset.sum_congr rfl fun d _ => congrArg (· * v108 (ix3 (0 : Fin 1) j d)) ?_
    exact Tree.Lib.addf_at rfl (Tree.Lib.mulf_at (Tree.Lib.addf_at rfl (groupSum_apply v85 v87 rfl p d)) inv_50)
  · exact Tree.Lib.mulf_at (Tree.Lib.addf_at rfl (groupSum_apply v85 (mulf v87 v87) rfl p j)) inv_50

/-- Rounds 1 and 2: the second state mapped through round 1, plus the cube-weighted sum over fifty, mapped through
    round 2. -/
theorem pay1_apply (v104 : FVec Ideal S256x64 .f32) (v122 : FVec Ideal S256x64 .f32) (v123 : Vec Ideal S1x64x64 .f32)
    (v125 : Vec Ideal S1x64 .f32) (v138 : Vec Ideal S1x64x64 .f32) (v140 : Vec Ideal S1x64 .f32)
    (p : Fin 256) (j : Fin 64) :
    k0_pay1 (F := Ideal) v104 v122 v123 v125 v138 v140 (ix2 p j)
      = max ((∑ d : Fin 64,
                (max ((∑ d' : Fin 64, v122 (ix2 p d') * v123 (ix3 (0 : Fin 1) d d')) + v125 (ix2 (0 : Fin 1) d)) 0
                    + v104 (ix2 p d) * fiftieth)
                  * v138 (ix3 (0 : Fin 1) j d)) + v140 (ix2 (0 : Fin 1) j)) 0 := by
  unfold k0_pay1
  refine (layer_apply _ v138 v140 p j).trans ?_
  refine congrArg (max · (0 : EReal)) (congrArg (· + v140 (ix2 (0 : Fin 1) j)) ?_)
  refine Finset.sum_congr rfl fun d _ => congrArg (· * v138 (ix3 (0 : Fin 1) j d)) ?_
  exact Tree.Lib.addf_at (layer_apply v122 v123 v125 p d) (Tree.Lib.mulf_at rfl inv_50)

end Cert.KernelIdeal.TileValue

end
-- ==== Proof.ConvTile.lean ====
/-
  The pooling tile body at an entry: what the body leaves in the output tile is, row by row, the three rounds of
  grouped pooling of the specification.

  The body stores once, through the whole tile, so the tile after the body is the last payload. The loaded blocks are
  restrictions of the whole blocks: group `c`'s blocks of features and mask values are the whole blocks at the
  neighbours `10 c + kk`, the slabs and rows `0, 1, 2` of the weights and biases are the stacks at those rounds, and the
  row tile is itself. Reading the payloads at `(p, j)` one after the other leaves those restrictions at entries. The three
  accumulated sums start from zero and add the five groups in order, which is the grouped sum over the fifty
  neighbours.
-/
import proofs.«125533_j87866440942280_2_alg».proof.Proof.ConvTilePayloads

noncomputable section

open scoped BigOperators

namespace Cert.KernelIdeal.TileValue

open Idealize.ShloMosaic Idealize.ShloMosaic.ValueIdx Cert.KernelIdeal Cert.KernelIdeal.Gen
open PooledLayers (chunk)

/-- The whole tile's rectangle starts at the origin. -/
theorem origin2 : (![0, 0] : Fin 2 → ℕ) = fun _ => 0 := by
  funext a
  match a with
  | ⟨0, _⟩ => rfl
  | ⟨1, _⟩ => rfl

/-! ## The loaded blocks as restrictions of the whole blocks -/

/-- Group `c`'s features: neighbour `kk` of the group is neighbour `10 c + kk` of the row. -/
def featGroup (x0 : Vec Ideal S256x50x64 .f32) (c : Fin 5) : Vec Ideal S256x10x64 .f32 :=
  fun i => x0 (ix3 (i 0) (chunk c (i 1)) (i 2))

/-- Group `c`'s mask values. -/
def maskGroup (x1 : Vec Ideal S256x50 .f32) (c : Fin 5) : Vec Ideal S256x10 .f32 :=
  fun i => x1 (ix2 (i 0) (chunk c (i 1)))

/-- Round `l`'s weight matrix as a one-slab stack. -/
def slabOf (x3 : Vec Ideal S3x64x64 .f32) (l : Fin 3) : Vec Ideal S1x64x64 .f32 :=
  fun i => x3 (ix3 l (i 1) (i 2))

/-- Round `l`'s bias as a one-row block. -/
def rowOf (x4 : Vec Ideal S3x64 .f32) (l : Fin 3) : Vec Ideal S1x64 .f32 :=
  fun i => x4 (ix2 l (i 1))

section Blocks
variable (x0 : Vec Ideal S256x50x64 .f32) (x1 : Vec Ideal S256x50 .f32) (x2 : Vec Ideal S256x64 .f32)
  (x3 : Vec Ideal S3x64x64 .f32) (x4 : Vec Ideal S3x64 .f32)

theorem featGroup_apply (c : Fin 5) (p : Fin 256) (kk : Fin 10) (d : Fin 64) :
    featGroup x0 c (ix3 p kk d) = x0 (ix3 p (chunk c kk) d) := rfl
theorem maskGroup_apply (c : Fin 5) (p : Fin 256) (kk : Fin 10) :
    maskGroup x1 c (ix2 p kk) = x1 (ix2 p (chunk c kk)) := rfl
theorem slabOf_apply (l : Fin 3) (j d : Fin 64) : slabOf x3 l (ix3 (0 : Fin 1) j d) = x3 (ix3 l j d) := rfl
theorem rowOf_apply (l : Fin 3) (j : Fin 64) : rowOf x4 l (ix2 (0 : Fin 1) j) = x4 (ix2 l j) := rfl

theorem ld_rows : View.ld x2 r0_0 = x2 := View.ld_unit_zero origin2 _ x2

/-- A features rectangle at the offset `o = 10 c` loads group `c`. -/
theorem ld_feat (o : ℕ) (c : Fin 5) (hc : c.val * 10 = o)
    (inb : ∀ ax, (![0, o, 0] : Fin 3 → ℕ) ax + S256x10x64.size ax ≤ S256x50x64.size ax) :
    View.ld x0 (Rect.unit (s := S256x50x64) ![0, o, 0] S256x10x64.size inb) = featGroup x0 c := by
  funext i
  obtain ⟨p, kk, d, rfl⟩ : ∃ (p : Fin 256) (kk : Fin 10) (d : Fin 64), i = ix3 p kk d := ⟨i 0, i 1, i 2, eq_ix3 i⟩
  exact ld_group3 x0 o c hc inb p kk d

/-- A mask rectangle at the offset `o = 10 c` loads group `c`. -/
theorem ld_mask (o : ℕ) (c : Fin 5) (hc : c.val * 10 = o)
    (inb : ∀ ax, (![0, o] : Fin 2 → ℕ) ax + S256x10.size ax ≤ S256x50.size ax) :
    View.ld x1 (Rect.unit (s := S256x50) ![0, o] S256x10.size inb) = maskGroup x1 c := by
  funext i
  obtain ⟨p, kk, rfl⟩ : ∃ (p : Fin 256) (kk : Fin 10), i = ix2 p kk := ⟨i 0, i 1, eq_ix2 i⟩
  exact ld_group2 x1 o c hc inb p kk

/-- A weights rectangle at the offset `o = l` loads round `l`'s matrix. -/
theorem ld_slabOf (o : ℕ) (l : Fin 3) (hl : l.val = o)
    (inb : ∀ ax, (![o, 0, 0] : Fin 3 → ℕ) ax + S1x64x64.size ax ≤ S3x64x64.size ax) :
    View.ld x3 (Rect.unit (s := S3x64x64) ![o, 0, 0] S1x64x64.size inb) = slabOf x3 l := by
  funext i
  obtain ⟨u, j, d, rfl⟩ : ∃ (u : Fin 1) (j : Fin 64) (d : Fin 64), i = ix3 u j d := ⟨i 0, i 1, i 2, eq_ix3 i⟩
  obtain rfl : u = 0 := Subsingleton.elim u 0
  exact Hmu.Lib.ld_slab x3 o l hl inb j d

/-- A biases rectangle at the offset `o = l` loads round `l`'s row. -/
theorem ld_rowOf (o : ℕ) (l : Fin 3) (hl : l.val = o)
    (inb : ∀ ax, (![o, 0] : Fin 2 → ℕ) ax + S1x64.size ax ≤ S3x64.size ax) :
    View.ld x4 (Rect.unit (s := S3x64) ![o, 0] S1x64.size inb) = rowOf x4 l := by
  funext i
  obtain ⟨u, j, rfl⟩ : ∃ (u : Fin 1) (j : Fin 64), i = ix2 u j := ⟨i 0, i 1, eq_ix2 i⟩
  obtain rfl : u = 0 := Subsingleton.elim u 0
  exact ld_row x4 o l hl inb j

end Blocks

/-! ## The tile after the body -/

/-- The output tile after the body, at `(p, j)`: row `p`'s three rounds of grouped pooling, coordinate `j`. -/
theorem out0_5_apply (x0 : Vec Ideal S256x50x64 .f32) (x1 : Vec Ideal S256x50 .f32) (x2 : Vec Ideal S256x64 .f32)
    (x3 : Vec Ideal S3x64x64 .f32) (x4 : Vec Ideal S3x64 .f32) (p : Fin 256) (j : Fin 64) :
    Cert.KernelIdeal.Gen.out0_5 (F := Ideal) x0 x1 x2 x3 x4 (ix2 p j)
      = PooledLayers.rowGrouped x3 x4 (fun d => x2 (ix2 p d)) (fun k d => x0 (ix3 p k d)) (fun k => x1 (ix2 p k)) j := by
  unfold Gen.out0_5
  rw [View.canon_unit_zero origin2, ld_rows x2,
    ld_feat x0 0 0 rfl, ld_feat x0 10 1 rfl, ld_feat x0 20 2 rfl, ld_feat x0 30 3 rfl, ld_feat x0 40 4 rfl,
    ld_mask x1 0 0 rfl, ld_mask x1 10 1 rfl, ld_mask x1 20 2 rfl, ld_mask x1 30 3 rfl, ld_mask x1 40 4 rfl,
    ld_slabOf x3 0 0 rfl, ld_slabOf x3 1 1 rfl, ld_slabOf x3 2 2 rfl,
    ld_rowOf x4 0 0 rfl, ld_rowOf x4 1 1 rfl, ld_rowOf x4 2 2 rfl]
  rw [pay1_apply]
  simp only [pay20_apply, pay21_apply, pay12_apply, pay14_apply, pay16_apply, pay17_apply, pay5_apply, pay7_apply,
    pay9_apply, pay2_eq, pay6_eq, pay8_eq, mulf_apply]
  simp only [featGroup_apply, maskGroup_apply, slabOf_apply, rowOf_apply]
  unfold PooledLayers.rowGrouped PooledLayers.lin PooledLayers.sumGrouped
  simp only [Fin.sum_univ_five, zero_add]

end Cert.KernelIdeal.TileValue

end
-- ==== Proof.lean ====
/-
  A Pallas kernel program against its jnp reference, equal on the extended reals.

  Both programs gather user rows, item rows and fifty neighbour rows per user from embedding tables, run three rounds
  of "add to the state the mean over the neighbours of the neighbour features weighted by a power of the mask, apply a
  linear map and a bias, keep the positive part", and return the matrix of scores of the final states against the item
  rows. The kernel program does the three rounds in one tiled kernel (256 users per tile; the fifty neighbours summed
  in five groups of ten; the mask's powers formed first; the mean as a product with the float 0.02, which its idealized
  form names 1/50) and the scores in a second tiled kernel (1024 × 1024 tiles); the reference applies the mask to the
  masked features again each round, sums all fifty neighbours at once and divides by 50.

  The two are the same function on the extended reals: products and sums there are associative and commutative, and a
  quotient by the real 50 is the product with 1/50 for every extended real, so no finiteness of the inputs is used. The
  gathers are host operations common to both programs and are never opened.

  The claim's five parts: the three frames (the kernel programs' from their generated frame proofs, the reference's from
  its generated run), the named constant's three uses, and the equality of results (Proof/Claims.lean, over what the
  first kernel's body leaves in a tile, Proof/ConvTile.lean).
-/
import proofs.«125533_j87866440942280_2_alg».proof.Defs
import proofs.«125533_j87866440942280_2_alg».proof.Proof.Gen.Kernel
import proofs.«125533_j87866440942280_2_alg».proof.Proof.Gen.KernelIdeal
import proofs.«125533_j87866440942280_2_alg».proof.Proof.Gen.ReferenceIdeal
import proofs.«125533_j87866440942280_2_alg».proof.Proof.Gen.Pre_finite_inputs
import proofs.«125533_j87866440942280_2_alg».proof.Proof.Claims
import proofs.«125533_j87866440942280_2_alg».proof.Proof.ConvTile
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of Cert.KernelIdeal.TileValue.out0_5_apply⟩

end Cert.Proof

end
